-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3200000 : Shape := ⟨1, ![3200000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x64 .f32) (main_arg1 : FVec F S50000x64 .f32) (main_arg2 : FVec F S3200000 .f32) (main_arg3 : IVec S3200000 32) (main_arg4 : IVec S3200000 32) (main_arg5 : IVec S16384 32) (main_arg6 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S3200000 : Shape := ⟨1, ![3200000]⟩
abbrev S16384 : Shape := ⟨1, ![16384]⟩
abbrev S3200000x1 : Shape := ⟨2, ![3200000, 1]⟩
abbrev S_ : Shape := ⟨0, ![]⟩
abbrev S3200000x64 : Shape := ⟨2, ![3200000, 64]⟩
abbrev S50000x128 : Shape := ⟨2, ![50000, 128]⟩
abbrev S5000x128 : Shape := ⟨2, ![5000, 128]⟩
abbrev S25000x128 : Shape := ⟨2, ![25000, 128]⟩
abbrev S16384x1 : Shape := ⟨2, ![16384, 1]⟩
abbrev S16384x64 : Shape := ⟨2, ![16384, 64]⟩
abbrev S2048x64 : Shape := ⟨2, ![2048, 64]⟩
abbrev S2048 : Shape := ⟨1, ![2048]⟩

abbrev nBuf : Space → Nat
  | .hbm => 146
  | .vmem => 42
  | .smem => 0
  | _ => 0

abbrev hbmTy0_0 (i : Nat) : BufTy := match i % 128 with
  | 0 => ⟨S100000x64, .f32⟩
  | 1 => ⟨S50000x64, .f32⟩
  | 2 => ⟨S3200000, .f32⟩
  | 3 => ⟨S3200000, .i32⟩
  | 4 => ⟨S3200000, .i32⟩
  | 5 => ⟨S16384, .i32⟩
  | 6 => ⟨S16384, .i32⟩
  | 7 => ⟨S3200000x1, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x64, .f32⟩
  | 17 => ⟨S3200000x64, .f32⟩
  | 18 => ⟨S3200000x64, .f32⟩
  | 19 => ⟨S_, .f32⟩
  | 20 => ⟨S50000x64, .f32⟩
  | 21 => ⟨S3200000x1, .i32⟩
  | 22 => ⟨S50000x64, .f32⟩
  | 23 => ⟨S3200000x1, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x64, .f32⟩
  | 33 => ⟨S3200000x64, .f32⟩
  | 34 => ⟨S3200000x64, .f32⟩
  | 35 => ⟨S_, .f32⟩
  | 36 => ⟨S100000x64, .f32⟩
  | 37 => ⟨S3200000x1, .i32⟩
  | 38 => ⟨S100000x64, .f32⟩
  | 39 => ⟨S50000x128, .f32⟩
  | 40 => ⟨S50000x128, .f32⟩
  | 41 => ⟨S50000x128, .f32⟩
  | 42 => ⟨S100000x64, .f32⟩
  | 43 => ⟨S25000x128, .f32⟩
  | 44 => ⟨S25000x128, .f32⟩
  | 45 => ⟨S25000x128, .f32⟩
  | 46 => ⟨S50000x64, .f32⟩
  | 47 => ⟨S3200000x1, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x64, .f32⟩
  | 57 => ⟨S3200000x64, .f32⟩
  | 58 => ⟨S3200000x64, .f32⟩
  | 59 => ⟨S_, .f32⟩
  | 60 => ⟨S50000x64, .f32⟩
  | 61 => ⟨S3200000x1, .i32⟩
  | 62 => ⟨S50000x64, .f32⟩
  | 63 => ⟨S3200000x1, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x64, .f32⟩
  | 73 => ⟨S3200000x64, .f32⟩
  | 74 => ⟨S3200000x64, .f32⟩
  | 75 => ⟨S_, .f32⟩
  | 76 => ⟨S100000x64, .f32⟩
  | 77 => ⟨S3200000x1, .i32⟩
  | 78 => ⟨S100000x64, .f32⟩
  | 79 => ⟨S50000x128, .f32⟩
  | 80 => ⟨S50000x128, .f32⟩
  | 81 => ⟨S50000x128, .f32⟩
  | 82 => ⟨S100000x64, .f32⟩
  | 83 => ⟨S25000x128, .f32⟩
  | 84 => ⟨S25000x128, .f32⟩
  | 85 => ⟨S25000x128, .f32⟩
  | 86 => ⟨S50000x64, .f32⟩
  | 87 => ⟨S3200000x1, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x64, .f32⟩
  | 97 => ⟨S3200000x64, .f32⟩
  | 98 => ⟨S3200000x64, .f32⟩
  | 99 => ⟨S_, .f32⟩
  | 100 => ⟨S50000x64, .f32⟩
  | 101 => ⟨S3200000x1, .i32⟩
  | 102 => ⟨S50000x64, .f32⟩
  | 103 => ⟨S3200000x1, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x64, .f32⟩
  | 113 => ⟨S3200000x64, .f32⟩
  | 114 => ⟨S3200000x64, .f32⟩
  | 115 => ⟨S_, .f32⟩
  | 116 => ⟨S100000x64, .f32⟩
  | 117 => ⟨S3200000x1, .i32⟩
  | 118 => ⟨S100000x64, .f32⟩
  | 119 => ⟨S50000x128, .f32⟩
  | 120 => ⟨S50000x128, .f32⟩
  | 121 => ⟨S50000x128, .f32⟩
  | 122 => ⟨S100000x64, .f32⟩
  | 123 => ⟨S25000x128, .f32⟩
  | 124 => ⟨S25000x128, .f32⟩
  | 125 => ⟨S25000x128, .f32⟩
  | 126 => ⟨S50000x64, .f32⟩
  | 127 => ⟨S_, .i32⟩
  | _ => ⟨S100000x64, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x64, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x64, .f32⟩
  | 17 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S2048x64, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | .local _ .vmem, ⟨40, _⟩ => ⟨S2048, .f32⟩
  | .local _ .vmem, ⟨41, _⟩ => ⟨S2048, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_10 : Ref sig .tc := ⟨.hbm, 88, rfl⟩
abbrev main_v69 : Ref sig .tc := ⟨.hbm, 89, rfl⟩
abbrev main_v70 : Ref sig .tc := ⟨.hbm, 90, rfl⟩
abbrev main_c_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_13 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_16 : Ref sig .tc := ⟨.hbm, 127, rfl⟩
abbrev main_v102 : Ref sig .tc := ⟨.hbm, 128, rfl⟩
abbrev main_v103 : Ref sig .tc := ⟨.hbm, 129, rfl⟩
abbrev main_c_17 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_18 : Ref sig .tc := ⟨.hbm, 136, rfl⟩
abbrev main_v109 : Ref sig .tc := ⟨.hbm, 137, rfl⟩
abbrev main_v110 : Ref sig .tc := ⟨.hbm, 138, rfl⟩
abbrev main_c_19 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S50000x64 : S_.BroadcastsInDim S50000x64 (![] : Fin 0 → Fin S50000x64.rank)
  bcast_S_S100000x64 : S_.BroadcastsInDim S100000x64 (![] : Fin 0 → Fin S100000x64.rank)
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S100000x64 : S50000x128.ShapeCasts S100000x64
  shapeCasts_S50000x64_S25000x128 : S50000x64.ShapeCasts S25000x128
  shapeCasts_S25000x128_S50000x64 : S25000x128.ShapeCasts S50000x64
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  inb_S2048_S2048_0 : ∀ a, (![0] : Fin 1 → Nat) a + S2048.size a ≤ S2048.size a
  h_S2048 : 0 < S2048.numel
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S25000x128.size a
  hwx3_1 : ∀ i : grid3.Coords, EltTy.bits .f32 = 32 ∨ (Rect.block (s := S25000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .f32 = 32 ∨ (Rect.block (s := S25000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S25000x128.size a
  hwx5_1 : ∀ i : grid5.Coords, EltTy.bits .f32 = 32 ∨ (Rect.block (s := S25000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S25000x128.size a
  hwx5_2 : ∀ i : grid5.Coords, EltTy.bits .f32 = 32 ∨ (Rect.block (s := S25000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S16384x64.size a
  hwx6_0 : ∀ i : grid6.Coords, EltTy.bits .f32 = 32 ∨ (Rect.block (s := S16384x64) S2048x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x64.size a ≤ S16384x64.size a
  hwx6_1 : ∀ i : grid6.Coords, EltTy.bits .f32 = 32 ∨ (Rect.block (s := S16384x64) S2048x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048.size a ≤ S16384.size a
  hwx6_2 : ∀ i : grid6.Coords, EltTy.bits .f32 = 32 ∨ (Rect.block (s := S16384) S2048.size (cc6_transform_2 i) (hinb6_2 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v98) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v100) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v108) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S2048x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3200000 : Shape := ⟨1, ![3200000]⟩
abbrev S16384 : Shape := ⟨1, ![16384]⟩
abbrev S3200000x1 : Shape := ⟨2, ![3200000, 1]⟩
abbrev S_ : Shape := ⟨0, ![]⟩
abbrev S3200000x64 : Shape := ⟨2, ![3200000, 64]⟩
abbrev S16384x1 : Shape := ⟨2, ![16384, 1]⟩
abbrev S16384x64 : Shape := ⟨2, ![16384, 64]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S50000x64, .f32⟩
  | 2 => ⟨S3200000, .f32⟩
  | 3 => ⟨S3200000, .i32⟩
  | 4 => ⟨S3200000, .i32⟩
  | 5 => ⟨S16384, .i32⟩
  | 6 => ⟨S16384, .i32⟩
  | 7 => ⟨S3200000x1, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x64, .f32⟩
  | 17 => ⟨S3200000x64, .f32⟩
  | 18 => ⟨S3200000x64, .f32⟩
  | 19 => ⟨S_, .f32⟩
  | 20 => ⟨S50000x64, .f32⟩
  | 21 => ⟨S3200000x1, .i32⟩
  | 22 => ⟨S50000x64, .f32⟩
  | 23 => ⟨S3200000x1, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x64, .f32⟩
  | 33 => ⟨S3200000x64, .f32⟩
  | 34 => ⟨S3200000x64, .f32⟩
  | 35 => ⟨S_, .f32⟩
  | 36 => ⟨S100000x64, .f32⟩
  | 37 => ⟨S3200000x1, .i32⟩
  | 38 => ⟨S100000x64, .f32⟩
  | 39 => ⟨S100000x64, .f32⟩
  | 40 => ⟨S50000x64, .f32⟩
  | 41 => ⟨S3200000x1, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S3200000x64, .f32⟩
  | 52 => ⟨S3200000x64, .f32⟩
  | 53 => ⟨S_, .f32⟩
  | 54 => ⟨S50000x64, .f32⟩
  | 55 => ⟨S3200000x1, .i32⟩
  | 56 => ⟨S50000x64, .f32⟩
  | 57 => ⟨S3200000x1, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x64, .f32⟩
  | 67 => ⟨S3200000x64, .f32⟩
  | 68 => ⟨S3200000x64, .f32⟩
  | 69 => ⟨S_, .f32⟩
  | 70 => ⟨S100000x64, .f32⟩
  | 71 => ⟨S3200000x1, .i32⟩
  | 72 => ⟨S100000x64, .f32⟩
  | 73 => ⟨S100000x64, .f32⟩
  | 74 => ⟨S50000x64, .f32⟩
  | 75 => ⟨S3200000x1, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000x64, .f32⟩
  | 85 => ⟨S3200000x64, .f32⟩
  | 86 => ⟨S3200000x64, .f32⟩
  | 87 => ⟨S_, .f32⟩
  | 88 => ⟨S50000x64, .f32⟩
  | 89 => ⟨S3200000x1, .i32⟩
  | 90 => ⟨S50000x64, .f32⟩
  | 91 => ⟨S3200000x1, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S3200000x64, .f32⟩
  | 102 => ⟨S3200000x64, .f32⟩
  | 103 => ⟨S_, .f32⟩
  | 104 => ⟨S100000x64, .f32⟩
  | 105 => ⟨S3200000x1, .i32⟩
  | 106 => ⟨S100000x64, .f32⟩
  | 107 => ⟨S100000x64, .f32⟩
  | 108 => ⟨S50000x64, .f32⟩
  | 109 => ⟨S_, .f32⟩
  | 110 => ⟨S100000x64, .f32⟩
  | 111 => ⟨S100000x64, .f32⟩
  | 112 => ⟨S_, .f32⟩
  | 113 => ⟨S50000x64, .f32⟩
  | 114 => ⟨S50000x64, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S16384x64, .f32⟩
  | 124 => ⟨S_, .i32⟩
  | 125 => ⟨S16384, .i32⟩
  | 126 => ⟨S16384, .i1⟩
  | 127 => ⟨S_, .i32⟩
  | _ => ⟨S100000x64, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x64, .f32⟩
  | 5 => ⟨S16384x64, .f32⟩
  | 6 => ⟨S_, .f32⟩
  | 7 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_c_18 : Ref sig .tc := ⟨.hbm, 115, rfl⟩
abbrev main_v88 : Ref sig .tc := ⟨.hbm, 116, rfl⟩
abbrev main_v89 : Ref sig .tc := ⟨.hbm, 117, rfl⟩
abbrev main_c_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_20 : Ref sig .tc := ⟨.hbm, 124, rfl⟩
abbrev main_v95 : Ref sig .tc := ⟨.hbm, 125, rfl⟩
abbrev main_v96 : Ref sig .tc := ⟨.hbm, 126, rfl⟩
abbrev main_c_21 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_22 : Ref sig .tc := ⟨.hbm, 134, rfl⟩
abbrev main_v103 : Ref sig .tc := ⟨.hbm, 135, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S50000x64 : S_.BroadcastsInDim S50000x64 (![] : Fin 0 → Fin S50000x64.rank)
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.KernelRun.lean ====
/-
  The idealized kernel's run with its RESULT named.

  @main is seven launches among stretches of host operations. The buffer contents at the fourteen segment
  boundaries are a fold from the launch memory (`Gen.W0` … `Gen.W14`): a stretch of host operations applies
  them, a launch leaves each of its arrays at what its write-backs hold and every other buffer as it was. The
  run below states, beside the unchanged arguments, that the result buffer ends at the last boundary's contents;
  the modules after this one read that fold back to the arguments.
-/
import proofs.«144139_j23854248362837_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v116) = W14 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v116 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Chain

end
-- ==== Proof.Layers.lean ====
/-
  The mathematics of the program, as one function of its seven arguments.

  A bipartite graph with 100000 user rows and 50000 item rows of width 64 is given by 3200000 weighted edges
  (weight `w e`, user row number `iu e`, item row number `ii e`). One propagation step sends a user table to the item
  table whose row `i` is the sum over the edges into `i` of `w e` times the user row of that edge (`toItems`), and an item
  table to a user table the same way (`toUsers`); a negative row number is first wrapped by the table's height. Three
  steps are taken from the two embedding tables, each side reading the other side's previous table, and the tables of all
  four depths are added up (`sumUsers`, `sumItems`). Of these sums 16384 user rows and 16384 item rows are then picked
  (`pickUsers`, `pickItems`).
-/
import proofs.«144139_j23854248362837_2_alg».proof.Proof.Gen.KernelIdeal

noncomputable section

namespace Cert.KernelIdeal.Layers

open Cert.KernelIdeal Cert.KernelIdeal.Facts₀ Idealize.ShloMosaic

variable {F : FTy → Type} [FloatOps F]

/-- A user table. -/
abbrev UserT (F : FTy → Type) := (⟨S100000x64, .f32⟩ : BufTy).Contents (Elt F)
/-- An item table. -/
abbrev ItemT (F : FTy → Type) := (⟨S50000x64, .f32⟩ : BufTy).Contents (Elt F)
/-- The edges' weights. -/
abbrev EdgeW (F : FTy → Type) := (⟨S3200000, .f32⟩ : BufTy).Contents (Elt F)
/-- One row number per edge. -/
abbrev EdgeIx (F : FTy → Type) := (⟨S3200000, .i32⟩ : BufTy).Contents (Elt F)
/-- One row number per scored pair. -/
abbrev PairIx (F : FTy → Type) := (⟨S16384, .i32⟩ : BufTy).Contents (Elt F)

/-- The edges' row numbers with a negative one wrapped by the table's height `n`. -/
def wrapEdges (n : BitVec 32) (ix : EdgeIx F) : EdgeIx F :=
  select (cmpi .slt ix (broadcastInDim S3200000 ![] bcast_S_S3200000 (constantI S_ 32 0#32)))
    (addi ix (broadcastInDim S3200000 ![] bcast_S_S3200000 (constantI S_ 32 n))) ix

/-- The pairs' row numbers with a negative one wrapped by the table's height `n`. -/
def wrapPairs (n : BitVec 32) (ix : PairIx F) : PairIx F :=
  select (cmpi .slt ix (broadcastInDim S16384 ![] bcast_S_S16384 (constantI S_ 32 0#32)))
    (addi ix (broadcastInDim S16384 ![] bcast_S_S16384 (constantI S_ 32 n))) ix

/-- One step towards the items: row `i` is the sum over the edges `e` with `ii e = i` of `w e` times user row `iu e`. -/
def toItems (eu : UserT F) (w : EdgeW F) (iu ii : EdgeIx F) : ItemT F :=
  Host.scatterAdd scatter_S50000x64_S3200000x1_S3200000x64_1_0_0_1
    (broadcastInDim S50000x64 ![] bcast_S_S50000x64 (constant (F := F) S_ .f32 0x00000000#32))
    (broadcastInDim S3200000x1 ![0] bcast_S3200000_S3200000x1_0 ii)
    (mulf (broadcastInDim S3200000x64 ![0, 1] bcast_S3200000x1_S3200000x64_0_1
        (broadcastInDim S3200000x1 ![0] bcast_S3200000_S3200000x1_0 w))
      (Host.gather gather_S100000x64_S3200000x1_S3200000x64_1_0_n_n_0_1_164 eu
        (broadcastInDim S3200000x1 ![0] bcast_S3200000_S3200000x1_0 (wrapEdges (F := F) 100000#32 iu))))

/-- One step towards the users: row `u` is the sum over the edges `e` with `iu e = u` of `w e` times item row `ii e`. -/
def toUsers (ei : ItemT F) (w : EdgeW F) (iu ii : EdgeIx F) : UserT F :=
  Host.scatterAdd scatter_S100000x64_S3200000x1_S3200000x64_1_0_0_1
    (broadcastInDim S100000x64 ![] bcast_S_S100000x64 (constant (F := F) S_ .f32 0x00000000#32))
    (broadcastInDim S3200000x1 ![0] bcast_S3200000_S3200000x1_0 iu)
    (mulf (broadcastInDim S3200000x64 ![0, 1] bcast_S3200000x1_S3200000x64_0_1
        (broadcastInDim S3200000x1 ![0] bcast_S3200000_S3200000x1_0 w))
      (Host.gather gather_S50000x64_S3200000x1_S3200000x64_1_0_n_n_0_1_164 ei
        (broadcastInDim S3200000x1 ![0] bcast_S3200000_S3200000x1_0 (wrapEdges (F := F) 50000#32 ii))))

section
variable (a0 : UserT F) (a1 : ItemT F) (w : EdgeW F) (iu ii : EdgeIx F)

/-- The user and item tables of depth 1, 2, 3. -/
def users1 : UserT F := toUsers a1 w iu ii
def items1 : ItemT F := toItems a0 w iu ii
def users2 : UserT F := toUsers (items1 a0 w iu ii) w iu ii
def items2 : ItemT F := toItems (users1 a1 w iu ii) w iu ii
def users3 : UserT F := toUsers (items2 a1 w iu ii) w iu ii
def items3 : ItemT F := toItems (users2 a0 w iu ii) w iu ii

/-- The user tables of depth 0 to 3 added up, in that order. -/
def sumUsers : UserT F := addf (addf (addf a0 (users1 a1 w iu ii)) (users2 a0 w iu ii)) (users3 a1 w iu ii)
/-- The item tables of depth 0 to 3 added up, in that order. -/
def sumItems : ItemT F := addf (addf (addf a1 (items1 a0 w iu ii)) (items2 a1 w iu ii)) (items3 a0 w iu ii)
end

/-- The rows of a user table the pairs name. -/
def pickUsers (x : UserT F) (u : PairIx F) : (⟨S16384x64, .f32⟩ : BufTy).Contents (Elt F) :=
  Host.gather gather_S100000x64_S16384x1_S16384x64_1_0_n_n_0_1_164 x
    (broadcastInDim S16384x1 ![0] bcast_S16384_S16384x1_0 (wrapPairs (F := F) 100000#32 u))

/-- The rows of an item table the pairs name. -/
def pickItems (x : ItemT F) (i : PairIx F) : (⟨S16384x64, .f32⟩ : BufTy).Contents (Elt F) :=
  Host.gather gather_S50000x64_S16384x1_S16384x64_1_0_n_n_0_1_164 x
    (broadcastInDim S16384x1 ![0] bcast_S16384_S16384x1_0 (wrapPairs (F := F) 50000#32 i))

end Cert.KernelIdeal.Layers

end
-- ==== Proof.HostStages.lean ====
/-
  The stretches of host operations between the launches, each read at the buffers later code uses.

  After a stretch run from buffer contents `Wp`, a buffer the stretch writes holds its operations' composed value of
  `Wp`'s buffers, and a buffer it does not write holds what `Wp` held. The values are spelled with the propagation
  steps and picks of the specification; a reshape between [n, 64] and [n/2, 128] is the same entries in row-major order.
-/
import proofs.«144139_j23854248362837_2_alg».proof.Proof.Gen.KernelIdeal.Frame
import proofs.«144139_j23854248362837_2_alg».proof.Proof.Layers
import Idealize.ShloMosaic.Lib.StableHlo.Run
import Idealize.ShloMosaic.Lib.Pipeline.Value

set_option maxRecDepth 16384

noncomputable section

namespace Cert.KernelIdeal.Chain.Host

open Cert.KernelIdeal Cert.KernelIdeal.Gen Cert.KernelIdeal.Layers
open Idealize.ShloMosaic Idealize.ShloMosaic.TcCoe Idealize.ShloMosaic.StableHlo
open Idealize.SL Idealize.SL.Sem

variable {F : FTy → Type} [FloatOps F]

/-- A user table as [50000, 128]: the same entries in row-major order. -/
def rsU (x : UserT F) : (⟨S50000x128, .f32⟩ : BufTy).Contents (Elt F) := shapeCast S50000x128 x Facts₀.shapeCasts_S100000x64_S50000x128
/-- … and back. -/
def unrsU (y : (⟨S50000x128, .f32⟩ : BufTy).Contents (Elt F)) : UserT F := shapeCast S100000x64 y Facts₀.shapeCasts_S50000x128_S100000x64
/-- An item table as [25000, 128]: the same entries in row-major order. -/
def rsI (x : ItemT F) : (⟨S25000x128, .f32⟩ : BufTy).Contents (Elt F) := shapeCast S25000x128 x Facts₀.shapeCasts_S50000x64_S25000x128
/-- … and back. -/
def unrsI (y : (⟨S25000x128, .f32⟩ : BufTy).Contents (Elt F)) : ItemT F := shapeCast S50000x64 y Facts₀.shapeCasts_S25000x128_S50000x64

/-- Adding entry by entry commutes with the re-laying: the sum of two re-laid user tables, laid back, is their sum. -/
theorem unrsU_sum (x y : UserT F) : unrsU (fun i => FloatOps.addf (rsU x i) (rsU y i)) = addf x y := by
  funext i
  show FloatOps.addf (x (Shape.reshapeEquiv _ (Shape.reshapeEquiv _ i))) (y (Shape.reshapeEquiv _ (Shape.reshapeEquiv _ i))) = FloatOps.addf (x i) (y i)
  rw [Shape.reshapeEquiv_reshapeEquiv, Shape.reshapeEquiv_self]

/-- The same for item tables. -/
theorem unrsI_sum (x y : ItemT F) : unrsI (fun i => FloatOps.addf (rsI x i) (rsI y i)) = addf x y := by
  funext i
  show FloatOps.addf (x (Shape.reshapeEquiv _ (Shape.reshapeEquiv _ i))) (y (Shape.reshapeEquiv _ (Shape.reshapeEquiv _ i))) = FloatOps.addf (x i) (y i)
  rw [Shape.reshapeEquiv_reshapeEquiv, Shape.reshapeEquiv_self]

variable (Wp : Valuation τ sig (Elt F))

local macro "dr(" b:term ")" : term => `(Proc.devRef .tc $b)

/-! ## Stretch 0 -/

set_option maxHeartbeats 4000000 in
theorem h0_main_v12 : after hostOps0 Wp dr(main_v12) = toItems (Wp dr(main_arg0)) (Wp dr(main_arg2)) (Wp dr(main_arg3)) (Wp dr(main_arg4)) := by
  after_results_simp <;> rfl

set_option maxHeartbeats 4000000 in
theorem h0_main_v25 : after hostOps0 Wp dr(main_v25) = toUsers (Wp dr(main_arg1)) (Wp dr(main_arg2)) (Wp dr(main_arg3)) (Wp dr(main_arg4)) := by
  after_results_simp <;> rfl

set_option maxHeartbeats 4000000 in
theorem h0_main_v26 : after hostOps0 Wp dr(main_v26) = rsU (Wp dr(main_arg0)) := by
  after_results_simp <;> rfl

set_option maxHeartbeats 4000000 in
theorem h0_main_v27 : after hostOps0 Wp dr(main_v27) = rsU (toUsers (Wp dr(main_arg1)) (Wp dr(main_arg2)) (Wp dr(main_arg3)) (Wp dr(main_arg4))) := by
  after_results_simp <;> rfl

set_option maxHeartbeats 4000000 in
theorem h0_main_arg1 : after hostOps0 Wp dr(main_arg1) = Wp dr(main_arg1) := by
  after_results_simp <;> rfl

set_option maxHeartbeats 4000000 in
theorem h0_main_arg2 : after hostOps0 Wp dr(main_arg2) = Wp dr(main_arg2) := by
  after_results_simp <;> rfl

set_option maxHeartbeats 4000000 in
theorem h0_main_arg3 : after hostOps0 Wp dr(main_arg3) = Wp dr(main_arg3) := by
  after_results_simp <;> rfl

set_option maxHeartbeats 4000000 in
theorem h0_main_arg4 : after hostOps0 Wp dr(main_arg4) = Wp dr(main_arg4) := by
  after_results_simp <;> rfl

set_option maxHeartbeats 4000000 in
theorem h0_main_arg5 : after hostOps0 Wp dr(main_arg5) = Wp dr(main_arg5) := by
  after_results_simp <;> rfl

set_option maxHeartbeats 4000000 in
theorem h0_main_arg6 : after hostOps0 Wp dr(main_arg6) = Wp dr(main_arg6) := by
  after_results_simp <;> rfl

/-! ## Stretch 1 -/

set_option maxHeartbeats 4000000 in
theorem h1_main_v29 : after hostOps1 Wp dr(main_v29) = unrsU (Wp dr(main_v28)) := by
  after_results_simp <;> rfl

set_option maxHeartbeats 4000000 in
theorem h1_main_v30 : after hostOps1 Wp dr(main_v30) = rsI (Wp dr(main_arg1)) := by
  after_results_simp <;> rfl

set_option maxHeartbeats 4000000 in
theorem h1_main_v31 : after hostOps1 Wp dr(main_v31) = rsI (Wp dr(main_v12)) := by
  after_results_simp <;> rfl

set_option maxHeartbeats 4000000 in
theorem h1_main_arg2 : after hostOps1 Wp dr(main_arg2) = Wp dr(main_arg2) := by
  after_results_simp <;> rfl

set_option maxHeartbeats 4000000 in
theorem h1_main_arg3 : after hostOps1 Wp dr(main_arg3) = Wp dr(main_arg3) := by
  after_results_simp <;> rfl

set_option maxHeartbeats 4000000 in
theorem h1_main_arg4 : after hostOps1 Wp dr(main_arg4) = Wp dr(main_arg4) := by
  after_results_simp <;> rfl

set_option maxHeartbeats 4000000 in
theorem h1_main_arg5 : after hostOps1 Wp dr(main_arg5) = Wp dr(main_arg5) := by
  after_results_simp <;> rfl

set_option maxHeartbeats 4000000 in
theorem h1_main_arg6 : after hostOps1 Wp dr(main_arg6) = Wp dr(main_arg6) := by
  after_results_simp <;> rfl

set_option maxHeartbeats 4000000 in
theorem h1_main_v12 : after hostOps1 Wp dr(main_v12) = Wp dr(main_v12) := by
  after_results_simp <;> rfl

set_option maxHeartbeats 4000000 in
theorem h1_main_v25 : after hostOps1 Wp dr(main_v25) = Wp dr(main_v25) := by
  after_results_simp <;> rfl

/-! ## Stretch 2 -/

set_option maxHeartbeats 4000000 in
theorem h2_main_v33 : after hostOps2 Wp dr(main_v33) = unrsI (Wp dr(main_v32)) := by
  after_results_simp <;> rfl

set_option maxHeartbeats 4000000 in
theorem h2_main_v46 : after hostOps2 Wp dr(main_v46) = toItems (Wp dr(main_v25)) (Wp dr(main_arg2)) (Wp dr(main_arg3)) (Wp dr(main_arg4)) := by
  after_results_simp <;> rfl

set_option maxHeartbeats 4000000 in
theorem h2_main_v59 : after hostOps2 Wp dr(main_v59) = toUsers (Wp dr(main_v12)) (Wp dr(main_arg2)) (Wp dr(main_arg3)) (Wp dr(main_arg4)) := by
  after_results_simp <;> rfl

set_option maxHeartbeats 4000000 in
theorem h2_main_v60 : after hostOps2 Wp dr(main_v60) = rsU (Wp dr(main_v29)) := by
  after_results_simp <;> rfl

set_option maxHeartbeats 4000000 in
theorem h2_main_v61 : after hostOps2 Wp dr(main_v61) = rsU (toUsers (Wp dr(main_v12)) (Wp dr(main_arg2)) (Wp dr(main_arg3)) (Wp dr(main_arg4))) := by
  after_results_simp <;> rfl

set_option maxHeartbeats 4000000 in
theorem h2_main_arg2 : after hostOps2 Wp dr(main_arg2) = Wp dr(main_arg2) := by
  after_results_simp <;> rfl

set_option maxHeartbeats 4000000 in
theorem h2_main_arg3 : after hostOps2 Wp dr(main_arg3) = Wp dr(main_arg3) := by
  after_results_simp <;> rfl

set_option maxHeartbeats 4000000 in
theorem h2_main_arg4 : after hostOps2 Wp dr(main_arg4) = Wp dr(main_arg4) := by
  after_results_simp <;> rfl

set_option maxHeartbeats 4000000 in
theorem h2_main_arg5 : after hostOps2 Wp dr(main_arg5) = Wp dr(main_arg5) := by
  after_results_simp <;> rfl

set_option maxHeartbeats 4000000 in
theorem h2_main_arg6 : after hostOps2 Wp dr(main_arg6) = Wp dr(main_arg6) := by
  after_results_simp <;> rfl

/-! ## Stretch 3 -/

set_option maxHeartbeats 4000000 in
theorem h3_main_v63 : after hostOps3 Wp dr(main_v63) = unrsU (Wp dr(main_v62)) := by
  after_results_simp <;> rfl

set_option maxHeartbeats 4000000 in
theorem h3_main_v64 : after hostOps3 Wp dr(main_v64) = rsI (Wp dr(main_v33)) := by
  after_results_simp <;> rfl

set_option maxHeartbeats 4000000 in
theorem h3_main_v65 : after hostOps3 Wp dr(main_v65) = rsI (Wp dr(main_v46)) := by
  after_results_simp <;> rfl

set_option maxHeartbeats 4000000 in
theorem h3_main_arg2 : after hostOps3 Wp dr(main_arg2) = Wp dr(main_arg2) := by
  after_results_simp <;> rfl

set_option maxHeartbeats 4000000 in
theorem h3_main_arg3 : after hostOps3 Wp dr(main_arg3) = Wp dr(main_arg3) := by
  after_results_simp <;> rfl

set_option maxHeartbeats 4000000 in
theorem h3_main_arg4 : after hostOps3 Wp dr(main_arg4) = Wp dr(main_arg4) := by
  after_results_simp <;> rfl

set_option maxHeartbeats 4000000 in
theorem h3_main_arg5 : after hostOps3 Wp dr(main_arg5) = Wp dr(main_arg5) := by
  after_results_simp <;> rfl

set_option maxHeartbeats 4000000 in
theorem h3_main_arg6 : after hostOps3 Wp dr(main_arg6) = Wp dr(main_arg6) := by
  after_results_simp <;> rfl

set_option maxHeartbeats 4000000 in
theorem h3_main_v46 : after hostOps3 Wp dr(main_v46) = Wp dr(main_v46) := by
  after_results_simp <;> rfl

set_option maxHeartbeats 4000000 in
theorem h3_main_v59 : after hostOps3 Wp dr(main_v59) = Wp dr(main_v59) := by
  after_results_simp <;> rfl

/-! ## Stretch 4 -/

set_option maxHeartbeats 4000000 in
theorem h4_main_v67 : after hostOps4 Wp dr(main_v67) = unrsI (Wp dr(main_v66)) := by
  after_results_simp <;> rfl

set_option maxHeartbeats 4000000 in
theorem h4_main_v80 : after hostOps4 Wp dr(main_v80) = toItems (Wp dr(main_v59)) (Wp dr(main_arg2)) (Wp dr(main_arg3)) (Wp dr(main_arg4)) := by
  after_results_simp <;> rfl

set_option maxHeartbeats 4000000 in
theorem h4_main_v93 : after hostOps4 Wp dr(main_v93) = toUsers (Wp dr(main_v46)) (Wp dr(main_arg2)) (Wp dr(main_arg3)) (Wp dr(main_arg4)) := by
  after_results_simp <;> rfl

set_option maxHeartbeats 4000000 in
theorem h4_main_v94 : after hostOps4 Wp dr(main_v94) = rsU (Wp dr(main_v63)) := by
  after_results_simp <;> rfl

set_option maxHeartbeats 4000000 in
theorem h4_main_v95 : after hostOps4 Wp dr(main_v95) = rsU (toUsers (Wp dr(main_v46)) (Wp dr(main_arg2)) (Wp dr(main_arg3)) (Wp dr(main_arg4))) := by
  after_results_simp <;> rfl

set_option maxHeartbeats 4000000 in
theorem h4_main_arg5 : after hostOps4 Wp dr(main_arg5) = Wp dr(main_arg5) := by
  after_results_simp <;> rfl

set_option maxHeartbeats 4000000 in
theorem h4_main_arg6 : after hostOps4 Wp dr(main_arg6) = Wp dr(main_arg6) := by
  after_results_simp <;> rfl

/-! ## Stretch 5 -/

set_option maxHeartbeats 4000000 in
theorem h5_main_v97 : after hostOps5 Wp dr(main_v97) = unrsU (Wp dr(main_v96)) := by
  after_results_simp <;> rfl

set_option maxHeartbeats 4000000 in
theorem h5_main_v98 : after hostOps5 Wp dr(main_v98) = rsI (Wp dr(main_v67)) := by
  after_results_simp <;> rfl

set_option maxHeartbeats 4000000 in
theorem h5_main_v99 : after hostOps5 Wp dr(main_v99) = rsI (Wp dr(main_v80)) := by
  after_results_simp <;> rfl

set_option maxHeartbeats 4000000 in
theorem h5_main_arg5 : after hostOps5 Wp dr(main_arg5) = Wp dr(main_arg5) := by
  after_results_simp <;> rfl

set_option maxHeartbeats 4000000 in
theorem h5_main_arg6 : after hostOps5 Wp dr(main_arg6) = Wp dr(main_arg6) := by
  after_results_simp <;> rfl

/-! ## Stretch 6 -/

set_option maxHeartbeats 4000000 in
theorem h6_main_v108 : after hostOps6 Wp dr(main_v108) = pickUsers (Wp dr(main_v97)) (Wp dr(main_arg5)) := by
  after_results_simp <;> rfl

set_option maxHeartbeats 4000000 in
theorem h6_main_v115 : after hostOps6 Wp dr(main_v115) = pickItems (unrsI (Wp dr(main_v100))) (Wp dr(main_arg6)) := by
  after_results_simp <;> rfl

end Cert.KernelIdeal.Chain.Host

end
-- ==== Proof.AddUsers.lean ====
/-
  The six accumulation launches, each read as one whole-array function.

  Each launch adds two [n, 128] arrays block by block: the grid walks the rows in blocks of 5000, every window on the
  same block, and the body stores the sum of the two blocks it loaded. The blocks tile the result array, so after the
  launch the result array is the elementwise sum of the two operand arrays as the launch found them.
-/
import proofs.«144139_j23854248362837_2_alg».proof.Proof.Gen.KernelIdeal.Frame
import Idealize.ShloMosaic.Lib.Pipeline.Value
import Idealize.ShloMosaic.Lib.ValueIdx

set_option maxRecDepth 16384

noncomputable section

namespace Cert.KernelIdeal.Chain.AddUsers

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-! ## Launch 0: the elementwise sum of two [50000, 128] arrays, 10 row blocks of 5000 -/

theorem pay0 (x0 x1 : Vec F S5000x128 .f32) : k0_pay1 x0 x1 = addf x0 x1 := by
  unfold k0_pay1
  simp only [shapeCast_self]

/-- The three windows move together down the rows: at point `t` each is on row block `t`, column block 0. -/
theorem idx0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

set_option maxHeartbeats 2000000 in
/-- What point `t` writes back is block `t` of the elementwise sum of the two operand arrays. -/
theorem flushed0 (c : Dev nD) (t : Fin cfg0.N) :
    (dat0 V c).flushed 2 t = ((cfg0.win 2).blk t).view.read (Elt F)
      (fun i => FloatOps.addf (V c (Pipeline.arrRef spec0 0) i) (V c (Pipeline.arrRef spec0 1) i)) := by
  show (cfg0.win 2).cut (grid0.coords t) ((dat0 V c).after 2 t) = _
  rw [after0_2]
  unfold out0_2
  rw [View.canon_unit_zero hz2]
  simp only [View.ld_unit_zero (S := S5000x128) hz2]
  rw [pay0]
  obtain ⟨e0, e1, e2, e3, e4, e5⟩ := idx0 t
  funext j
  show FloatOps.addf (V c (Pipeline.arrRef spec0 0) (((cfg0.win 0).blk t).view.emb j)) (V c (Pipeline.arrRef spec0 1) (((cfg0.win 1).blk t).view.emb j))
    = FloatOps.addf (V c (Pipeline.arrRef spec0 0) (((cfg0.win 2).blk t).view.emb j)) (V c (Pipeline.arrRef spec0 1) (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row `r` of the result array is in the block of point `r / 5000`: the blocks cover the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e4, e5⟩ := idx0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The launch leaves its result array at the elementwise sum of its two operand arrays, as the launch finds them. -/
theorem sum0 (c : Dev nD) : (dat0 V c).arrAt 2 cfg0.N
    = fun i => FloatOps.addf (V c (Pipeline.arrRef spec0 0) i) (V c (Pipeline.arrRef spec0 1) i) :=
  (dat0 V c).arrAt_eq_of_cover 2 _ (fun t _ => flushed0 V c t) cover0

/-! ## Launch 2: the elementwise sum of two [50000, 128] arrays, 10 row blocks of 5000 -/

theorem pay2 (x0 x1 : Vec F S5000x128 .f32) : k2_pay1 x0 x1 = addf x0 x1 := by
  unfold k2_pay1
  simp only [shapeCast_self]

/-- The three windows move together down the rows: at point `t` each is on row block `t`, column block 0. -/
theorem idx2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

set_option maxHeartbeats 2000000 in
/-- What point `t` writes back is block `t` of the elementwise sum of the two operand arrays. -/
theorem flushed2 (c : Dev nD) (t : Fin cfg2.N) :
    (dat2 V c).flushed 2 t = ((cfg2.win 2).blk t).view.read (Elt F)
      (fun i => FloatOps.addf (V c (Pipeline.arrRef spec2 0) i) (V c (Pipeline.arrRef spec2 1) i)) := by
  show (cfg2.win 2).cut (grid2.coords t) ((dat2 V c).after 2 t) = _
  rw [after2_2]
  unfold out2_2
  rw [View.canon_unit_zero hz2]
  simp only [View.ld_unit_zero (S := S5000x128) hz2]
  rw [pay2]
  obtain ⟨e0, e1, e2, e3, e4, e5⟩ := idx2 t
  funext j
  show FloatOps.addf (V c (Pipeline.arrRef spec2 0) (((cfg2.win 0).blk t).view.emb j)) (V c (Pipeline.arrRef spec2 1) (((cfg2.win 1).blk t).view.emb j))
    = FloatOps.addf (V c (Pipeline.arrRef spec2 0) (((cfg2.win 2).blk t).view.emb j)) (V c (Pipeline.arrRef spec2 1) (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Row `r` of the result array is in the block of point `r / 5000`: the blocks cover the array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, e4, e5⟩ := idx2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The launch leaves its result array at the elementwise sum of its two operand arrays, as the launch finds them. -/
theorem sum2 (c : Dev nD) : (dat2 V c).arrAt 2 cfg2.N
    = fun i => FloatOps.addf (V c (Pipeline.arrRef spec2 0) i) (V c (Pipeline.arrRef spec2 1) i) :=
  (dat2 V c).arrAt_eq_of_cover 2 _ (fun t _ => flushed2 V c t) cover2

/-! ## Launch 4: the elementwise sum of two [50000, 128] arrays, 10 row blocks of 5000 -/

theorem pay4 (x0 x1 : Vec F S5000x128 .f32) : k4_pay1 x0 x1 = addf x0 x1 := by
  unfold k4_pay1
  simp only [shapeCast_self]

/-- The three windows move together down the rows: at point `t` each is on row block `t`, column block 0. -/
theorem idx4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

set_option maxHeartbeats 2000000 in
/-- What point `t` writes back is block `t` of the elementwise sum of the two operand arrays. -/
theorem flushed4 (c : Dev nD) (t : Fin cfg4.N) :
    (dat4 V c).flushed 2 t = ((cfg4.win 2).blk t).view.read (Elt F)
      (fun i => FloatOps.addf (V c (Pipeline.arrRef spec4 0) i) (V c (Pipeline.arrRef spec4 1) i)) := by
  show (cfg4.win 2).cut (grid4.coords t) ((dat4 V c).after 2 t) = _
  rw [after4_2]
  unfold out4_2
  rw [View.canon_unit_zero hz2]
  simp only [View.ld_unit_zero (S := S5000x128) hz2]
  rw [pay4]
  obtain ⟨e0, e1, e2, e3, e4, e5⟩ := idx4 t
  funext j
  show FloatOps.addf (V c (Pipeline.arrRef spec4 0) (((cfg4.win 0).blk t).view.emb j)) (V c (Pipeline.arrRef spec4 1) (((cfg4.win 1).blk t).view.emb j))
    = FloatOps.addf (V c (Pipeline.arrRef spec4 0) (((cfg4.win 2).blk t).view.emb j)) (V c (Pipeline.arrRef spec4 1) (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v96).slice (win4_2.rect t)).set ↔ _
  rw [View.set_slice_whole, Rect.mem_set_unit]
  exact Iff.rfl

/-- Row `r` of the result array is in the block of point `r / 5000`: the blocks cover the array. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 5000, by rw [show cfg4.N = 10 from N_4]; omega⟩
  obtain ⟨-, -, -, -, e4, e5⟩ := idx4 t
  have e4' : win4_2.index t (0 : Fin 2) = (i 0).val / 5000 := e4
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The launch leaves its result array at the elementwise sum of its two operand arrays, as the launch finds them. -/
theorem sum4 (c : Dev nD) : (dat4 V c).arrAt 2 cfg4.N
    = fun i => FloatOps.addf (V c (Pipeline.arrRef spec4 0) i) (V c (Pipeline.arrRef spec4 1) i) :=
  (dat4 V c).arrAt_eq_of_cover 2 _ (fun t _ => flushed4 V c t) cover4

end Cert.KernelIdeal.Chain.AddUsers

end
-- ==== Proof.AddItems.lean ====
/-
  The six accumulation launches, each read as one whole-array function.

  Each launch adds two [n, 128] arrays block by block: the grid walks the rows in blocks of 5000, every window on the
  same block, and the body stores the sum of the two blocks it loaded. The blocks tile the result array, so after the
  launch the result array is the elementwise sum of the two operand arrays as the launch found them.
-/
import proofs.«144139_j23854248362837_2_alg».proof.Proof.Gen.KernelIdeal.Frame
import Idealize.ShloMosaic.Lib.Pipeline.Value
import Idealize.ShloMosaic.Lib.ValueIdx

set_option maxRecDepth 16384

noncomputable section

namespace Cert.KernelIdeal.Chain.AddItems

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-! ## Launch 1: the elementwise sum of two [25000, 128] arrays, 5 row blocks of 5000 -/

theorem pay1 (x0 x1 : Vec F S5000x128 .f32) : k1_pay1 x0 x1 = addf x0 x1 := by
  unfold k1_pay1
  simp only [shapeCast_self]

/-- The three windows move together down the rows: at point `t` each is on row block `t`, column block 0. -/
theorem idx1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

set_option maxHeartbeats 2000000 in
/-- What point `t` writes back is block `t` of the elementwise sum of the two operand arrays. -/
theorem flushed1 (c : Dev nD) (t : Fin cfg1.N) :
    (dat1 V c).flushed 2 t = ((cfg1.win 2).blk t).view.read (Elt F)
      (fun i => FloatOps.addf (V c (Pipeline.arrRef spec1 0) i) (V c (Pipeline.arrRef spec1 1) i)) := by
  show (cfg1.win 2).cut (grid1.coords t) ((dat1 V c).after 2 t) = _
  rw [after1_2]
  unfold out1_2
  rw [View.canon_unit_zero hz2]
  simp only [View.ld_unit_zero (S := S5000x128) hz2]
  rw [pay1]
  obtain ⟨e0, e1, e2, e3, e4, e5⟩ := idx1 t
  funext j
  show FloatOps.addf (V c (Pipeline.arrRef spec1 0) (((cfg1.win 0).blk t).view.emb j)) (V c (Pipeline.arrRef spec1 1) (((cfg1.win 1).blk t).view.emb j))
    = FloatOps.addf (V c (Pipeline.arrRef spec1 0) (((cfg1.win 2).blk t).view.emb j)) (V c (Pipeline.arrRef spec1 1) (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

theorem mem_blk1 (t : Fin cfg1.N) (i : S25000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- Row `r` of the result array is in the block of point `r / 5000`: the blocks cover the array. -/
theorem cover1 (i : S25000x128.Idx) : ∃ t : Fin cfg1.N, (cfg1.win 2).flush t = true ∧ i ∈ ((cfg1.win 2).blk t).view.set := by
  have hi0 : (i 0).val < 25000 := (i 0).isLt
  have hi1 : (i 1).val < 128 := (i 1).isLt
  let t : Fin cfg1.N := ⟨(i 0).val / 5000, by rw [show cfg1.N = 5 from N_1]; omega⟩
  obtain ⟨-, -, -, -, e4, e5⟩ := idx1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The launch leaves its result array at the elementwise sum of its two operand arrays, as the launch finds them. -/
theorem sum1 (c : Dev nD) : (dat1 V c).arrAt 2 cfg1.N
    = fun i => FloatOps.addf (V c (Pipeline.arrRef spec1 0) i) (V c (Pipeline.arrRef spec1 1) i) :=
  (dat1 V c).arrAt_eq_of_cover 2 _ (fun t _ => flushed1 V c t) cover1

/-! ## Launch 3: the elementwise sum of two [25000, 128] arrays, 5 row blocks of 5000 -/

theorem pay3 (x0 x1 : Vec F S5000x128 .f32) : k3_pay1 x0 x1 = addf x0 x1 := by
  unfold k3_pay1
  simp only [shapeCast_self]

/-- The three windows move together down the rows: at point `t` each is on row block `t`, column block 0. -/
theorem idx3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

set_option maxHeartbeats 2000000 in
/-- What point `t` writes back is block `t` of the elementwise sum of the two operand arrays. -/
theorem flushed3 (c : Dev nD) (t : Fin cfg3.N) :
    (dat3 V c).flushed 2 t = ((cfg3.win 2).blk t).view.read (Elt F)
      (fun i => FloatOps.addf (V c (Pipeline.arrRef spec3 0) i) (V c (Pipeline.arrRef spec3 1) i)) := by
  show (cfg3.win 2).cut (grid3.coords t) ((dat3 V c).after 2 t) = _
  rw [after3_2]
  unfold out3_2
  rw [View.canon_unit_zero hz2]
  simp only [View.ld_unit_zero (S := S5000x128) hz2]
  rw [pay3]
  obtain ⟨e0, e1, e2, e3, e4, e5⟩ := idx3 t
  funext j
  show FloatOps.addf (V c (Pipeline.arrRef spec3 0) (((cfg3.win 0).blk t).view.emb j)) (V c (Pipeline.arrRef spec3 1) (((cfg3.win 1).blk t).view.emb j))
    = FloatOps.addf (V c (Pipeline.arrRef spec3 0) (((cfg3.win 2).blk t).view.emb j)) (V c (Pipeline.arrRef spec3 1) (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

theorem mem_blk3 (t : Fin cfg3.N) (i : S25000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- Row `r` of the result array is in the block of point `r / 5000`: the blocks cover the array. -/
theorem cover3 (i : S25000x128.Idx) : ∃ t : Fin cfg3.N, (cfg3.win 2).flush t = true ∧ i ∈ ((cfg3.win 2).blk t).view.set := by
  have hi0 : (i 0).val < 25000 := (i 0).isLt
  have hi1 : (i 1).val < 128 := (i 1).isLt
  let t : Fin cfg3.N := ⟨(i 0).val / 5000, by rw [show cfg3.N = 5 from N_3]; omega⟩
  obtain ⟨-, -, -, -, e4, e5⟩ := idx3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The launch leaves its result array at the elementwise sum of its two operand arrays, as the launch finds them. -/
theorem sum3 (c : Dev nD) : (dat3 V c).arrAt 2 cfg3.N
    = fun i => FloatOps.addf (V c (Pipeline.arrRef spec3 0) i) (V c (Pipeline.arrRef spec3 1) i) :=
  (dat3 V c).arrAt_eq_of_cover 2 _ (fun t _ => flushed3 V c t) cover3

/-! ## Launch 5: the elementwise sum of two [25000, 128] arrays, 5 row blocks of 5000 -/

theorem pay5 (x0 x1 : Vec F S5000x128 .f32) : k5_pay1 x0 x1 = addf x0 x1 := by
  unfold k5_pay1
  simp only [shapeCast_self]

/-- The three windows move together down the rows: at point `t` each is on row block `t`, column block 0. -/
theorem idx5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val ∧ win5_2.index t (1 : Fin 2) = 0 :=
  (by decide +kernel : ∀ t : Fin grid5.N, _)

set_option maxHeartbeats 2000000 in
/-- What point `t` writes back is block `t` of the elementwise sum of the two operand arrays. -/
theorem flushed5 (c : Dev nD) (t : Fin cfg5.N) :
    (dat5 V c).flushed 2 t = ((cfg5.win 2).blk t).view.read (Elt F)
      (fun i => FloatOps.addf (V c (Pipeline.arrRef spec5 0) i) (V c (Pipeline.arrRef spec5 1) i)) := by
  show (cfg5.win 2).cut (grid5.coords t) ((dat5 V c).after 2 t) = _
  rw [after5_2]
  unfold out5_2
  rw [View.canon_unit_zero hz2]
  simp only [View.ld_unit_zero (S := S5000x128) hz2]
  rw [pay5]
  obtain ⟨e0, e1, e2, e3, e4, e5⟩ := idx5 t
  funext j
  show FloatOps.addf (V c (Pipeline.arrRef spec5 0) (((cfg5.win 0).blk t).view.emb j)) (V c (Pipeline.arrRef spec5 1) (((cfg5.win 1).blk t).view.emb j))
    = FloatOps.addf (V c (Pipeline.arrRef spec5 0) (((cfg5.win 2).blk t).view.emb j)) (V c (Pipeline.arrRef spec5 1) (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  rw [h0, h1]

theorem mem_blk5 (t : Fin cfg5.N) (i : S25000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v100).slice (win5_2.rect t)).set ↔ _
  rw [View.set_slice_whole, Rect.mem_set_unit]
  exact Iff.rfl

/-- Row `r` of the result array is in the block of point `r / 5000`: the blocks cover the array. -/
theorem cover5 (i : S25000x128.Idx) : ∃ t : Fin cfg5.N, (cfg5.win 2).flush t = true ∧ i ∈ ((cfg5.win 2).blk t).view.set := by
  have hi0 : (i 0).val < 25000 := (i 0).isLt
  have hi1 : (i 1).val < 128 := (i 1).isLt
  let t : Fin cfg5.N := ⟨(i 0).val / 5000, by rw [show cfg5.N = 5 from N_5]; omega⟩
  obtain ⟨-, -, -, -, e4, e5⟩ := idx5 t
  have e4' : win5_2.index t (0 : Fin 2) = (i 0).val / 5000 := e4
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The launch leaves its result array at the elementwise sum of its two operand arrays, as the launch finds them. -/
theorem sum5 (c : Dev nD) : (dat5 V c).arrAt 2 cfg5.N
    = fun i => FloatOps.addf (V c (Pipeline.arrRef spec5 0) i) (V c (Pipeline.arrRef spec5 1) i) :=
  (dat5 V c).arrAt_eq_of_cover 2 _ (fun t _ => flushed5 V c t) cover5

end Cert.KernelIdeal.Chain.AddItems

end
-- ==== Proof.Boundaries.lean ====
/-
  The buffer contents at the segment boundaries, read back to the arguments.

  Walking the fold of boundary contents from the launch memory: after each stretch of host operations and each
  accumulation launch, every buffer later code reads holds a named function of the seven argument arrays — the
  propagated tables of depth 1 to 3, the running sums of the user and of the item tables (a launch adds two re-laid
  tables entry by entry, and the re-laying back gives the sum of the tables), and at the end the picked rows of the two
  total sums, which the scoring launch reads.
-/
import proofs.«144139_j23854248362837_2_alg».proof.Proof.Gen.KernelIdeal.Frame
import proofs.«144139_j23854248362837_2_alg».proof.Proof.Layers
import Idealize.ShloMosaic.Lib.StableHlo.Run
import Idealize.ShloMosaic.Lib.Pipeline.Value
import proofs.«144139_j23854248362837_2_alg».proof.Proof.HostStages
import proofs.«144139_j23854248362837_2_alg».proof.Proof.AddUsers
import proofs.«144139_j23854248362837_2_alg».proof.Proof.AddItems
set_option maxRecDepth 16384

noncomputable section

namespace Cert.KernelIdeal.Chain.Bound

open Cert.KernelIdeal Cert.KernelIdeal.Gen Cert.KernelIdeal.Layers
open Idealize.ShloMosaic Idealize.ShloMosaic.TcCoe Idealize.ShloMosaic.StableHlo
open Idealize.SL Idealize.SL.Sem

variable {F : FTy → Type} [FloatOps F]

open Cert.KernelIdeal.Chain.Host

/-- Argument 0 at launch. -/
abbrev A0 (m : (ℓ : Loc nD τ sig) → Buf (Elt F) ℓ) (c : Dev nD) := m ((c.tc : Thread nD τ).loc main_arg0)
/-- Argument 1 at launch. -/
abbrev A1 (m : (ℓ : Loc nD τ sig) → Buf (Elt F) ℓ) (c : Dev nD) := m ((c.tc : Thread nD τ).loc main_arg1)
/-- Argument 2 at launch. -/
abbrev A2 (m : (ℓ : Loc nD τ sig) → Buf (Elt F) ℓ) (c : Dev nD) := m ((c.tc : Thread nD τ).loc main_arg2)
/-- Argument 3 at launch. -/
abbrev A3 (m : (ℓ : Loc nD τ sig) → Buf (Elt F) ℓ) (c : Dev nD) := m ((c.tc : Thread nD τ).loc main_arg3)
/-- Argument 4 at launch. -/
abbrev A4 (m : (ℓ : Loc nD τ sig) → Buf (Elt F) ℓ) (c : Dev nD) := m ((c.tc : Thread nD τ).loc main_arg4)
/-- Argument 5 at launch. -/
abbrev A5 (m : (ℓ : Loc nD τ sig) → Buf (Elt F) ℓ) (c : Dev nD) := m ((c.tc : Thread nD τ).loc main_arg5)
/-- Argument 6 at launch. -/
abbrev A6 (m : (ℓ : Loc nD τ sig) → Buf (Elt F) ℓ) (c : Dev nD) := m ((c.tc : Thread nD τ).loc main_arg6)

variable (m : (ℓ : Loc nD τ sig) → Buf (Elt F) ℓ) (ρ : Dev nD → PrngReg) (c : Dev nD)

local macro "dr(" b:term ")" : term => `(Proc.devRef .tc $b)

/-! ## At launch -/
theorem at0_main_arg0 : W0 m ρ c dr(main_arg0) = (A0 m c) := rfl
theorem at0_main_arg1 : W0 m ρ c dr(main_arg1) = (A1 m c) := rfl
theorem at0_main_arg2 : W0 m ρ c dr(main_arg2) = (A2 m c) := rfl
theorem at0_main_arg3 : W0 m ρ c dr(main_arg3) = (A3 m c) := rfl
theorem at0_main_arg4 : W0 m ρ c dr(main_arg4) = (A4 m c) := rfl
theorem at0_main_arg5 : W0 m ρ c dr(main_arg5) = (A5 m c) := rfl
theorem at0_main_arg6 : W0 m ρ c dr(main_arg6) = (A6 m c) := rfl

/-! ## After stretch 0 (boundary 1) -/
theorem at1_main_v12 : W1 m ρ c dr(main_v12) = (items1 (A0 m c) (A2 m c) (A3 m c) (A4 m c)) :=
  (h0_main_v12 (W0 m ρ c)).trans (by rw [at0_main_arg0 m ρ c, at0_main_arg2 m ρ c, at0_main_arg3 m ρ c, at0_main_arg4 m ρ c] <;> rfl)
theorem at1_main_v25 : W1 m ρ c dr(main_v25) = (users1 (A1 m c) (A2 m c) (A3 m c) (A4 m c)) :=
  (h0_main_v25 (W0 m ρ c)).trans (by rw [at0_main_arg1 m ρ c, at0_main_arg2 m ρ c, at0_main_arg3 m ρ c, at0_main_arg4 m ρ c] <;> rfl)
theorem at1_main_v26 : W1 m ρ c dr(main_v26) = (rsU (A0 m c)) :=
  (h0_main_v26 (W0 m ρ c)).trans (by rw [at0_main_arg0 m ρ c] <;> rfl)
theorem at1_main_v27 : W1 m ρ c dr(main_v27) = (rsU (users1 (A1 m c) (A2 m c) (A3 m c) (A4 m c))) :=
  (h0_main_v27 (W0 m ρ c)).trans (by rw [at0_main_arg1 m ρ c, at0_main_arg2 m ρ c, at0_main_arg3 m ρ c, at0_main_arg4 m ρ c] <;> rfl)
theorem at1_main_arg1 : W1 m ρ c dr(main_arg1) = (A1 m c) :=
  (h0_main_arg1 (W0 m ρ c)).trans (at0_main_arg1 m ρ c)
theorem at1_main_arg2 : W1 m ρ c dr(main_arg2) = (A2 m c) :=
  (h0_main_arg2 (W0 m ρ c)).trans (at0_main_arg2 m ρ c)
theorem at1_main_arg3 : W1 m ρ c dr(main_arg3) = (A3 m c) :=
  (h0_main_arg3 (W0 m ρ c)).trans (at0_main_arg3 m ρ c)
theorem at1_main_arg4 : W1 m ρ c dr(main_arg4) = (A4 m c) :=
  (h0_main_arg4 (W0 m ρ c)).trans (at0_main_arg4 m ρ c)
theorem at1_main_arg5 : W1 m ρ c dr(main_arg5) = (A5 m c) :=
  (h0_main_arg5 (W0 m ρ c)).trans (at0_main_arg5 m ρ c)
theorem at1_main_arg6 : W1 m ρ c dr(main_arg6) = (A6 m c) :=
  (h0_main_arg6 (W0 m ρ c)).trans (at0_main_arg6 m ρ c)

/-! ## After launch 0 (boundary 2) -/
theorem at2_main_v28 : W2 m ρ c dr(main_v28) = (fun i => FloatOps.addf ((rsU (A0 m c)) i) ((rsU (users1 (A1 m c) (A2 m c) (A3 m c) (A4 m c))) i)) :=
  (W2_arr m ρ c 2).trans ((AddUsers.sum0 (V1 m ρ) c).trans (by
    show (fun i => FloatOps.addf (W1 m ρ c dr(main_v26) i) (W1 m ρ c dr(main_v27) i)) = _
    rw [at1_main_v26 m ρ c, at1_main_v27 m ρ c]
    rfl))
theorem at2_main_arg1 : W2 m ρ c dr(main_arg1) = (A1 m c) :=
  (W2_of_ne m ρ c main_arg1 (by decide)).trans (at1_main_arg1 m ρ c)
theorem at2_main_arg2 : W2 m ρ c dr(main_arg2) = (A2 m c) :=
  (W2_of_ne m ρ c main_arg2 (by decide)).trans (at1_main_arg2 m ρ c)
theorem at2_main_arg3 : W2 m ρ c dr(main_arg3) = (A3 m c) :=
  (W2_of_ne m ρ c main_arg3 (by decide)).trans (at1_main_arg3 m ρ c)
theorem at2_main_arg4 : W2 m ρ c dr(main_arg4) = (A4 m c) :=
  (W2_of_ne m ρ c main_arg4 (by decide)).trans (at1_main_arg4 m ρ c)
theorem at2_main_arg5 : W2 m ρ c dr(main_arg5) = (A5 m c) :=
  (W2_of_ne m ρ c main_arg5 (by decide)).trans (at1_main_arg5 m ρ c)
theorem at2_main_arg6 : W2 m ρ c dr(main_arg6) = (A6 m c) :=
  (W2_of_ne m ρ c main_arg6 (by decide)).trans (at1_main_arg6 m ρ c)
theorem at2_main_v12 : W2 m ρ c dr(main_v12) = (items1 (A0 m c) (A2 m c) (A3 m c) (A4 m c)) :=
  (W2_of_ne m ρ c main_v12 (by decide)).trans (at1_main_v12 m ρ c)
theorem at2_main_v25 : W2 m ρ c dr(main_v25) = (users1 (A1 m c) (A2 m c) (A3 m c) (A4 m c)) :=
  (W2_of_ne m ρ c main_v25 (by decide)).trans (at1_main_v25 m ρ c)

/-! ## After stretch 1 (boundary 3) -/
theorem at3_main_v29 : W3 m ρ c dr(main_v29) = (addf (A0 m c) (users1 (A1 m c) (A2 m c) (A3 m c) (A4 m c))) :=
  (h1_main_v29 (W2 m ρ c)).trans (by rw [at2_main_v28 m ρ c] ; exact unrsU_sum _ _)
theorem at3_main_v30 : W3 m ρ c dr(main_v30) = (rsI (A1 m c)) :=
  (h1_main_v30 (W2 m ρ c)).trans (by rw [at2_main_arg1 m ρ c] <;> rfl)
theorem at3_main_v31 : W3 m ρ c dr(main_v31) = (rsI (items1 (A0 m c) (A2 m c) (A3 m c) (A4 m c))) :=
  (h1_main_v31 (W2 m ρ c)).trans (by rw [at2_main_v12 m ρ c] <;> rfl)
theorem at3_main_arg2 : W3 m ρ c dr(main_arg2) = (A2 m c) :=
  (h1_main_arg2 (W2 m ρ c)).trans (at2_main_arg2 m ρ c)
theorem at3_main_arg3 : W3 m ρ c dr(main_arg3) = (A3 m c) :=
  (h1_main_arg3 (W2 m ρ c)).trans (at2_main_arg3 m ρ c)
theorem at3_main_arg4 : W3 m ρ c dr(main_arg4) = (A4 m c) :=
  (h1_main_arg4 (W2 m ρ c)).trans (at2_main_arg4 m ρ c)
theorem at3_main_arg5 : W3 m ρ c dr(main_arg5) = (A5 m c) :=
  (h1_main_arg5 (W2 m ρ c)).trans (at2_main_arg5 m ρ c)
theorem at3_main_arg6 : W3 m ρ c dr(main_arg6) = (A6 m c) :=
  (h1_main_arg6 (W2 m ρ c)).trans (at2_main_arg6 m ρ c)
theorem at3_main_v12 : W3 m ρ c dr(main_v12) = (items1 (A0 m c) (A2 m c) (A3 m c) (A4 m c)) :=
  (h1_main_v12 (W2 m ρ c)).trans (at2_main_v12 m ρ c)
theorem at3_main_v25 : W3 m ρ c dr(main_v25) = (users1 (A1 m c) (A2 m c) (A3 m c) (A4 m c)) :=
  (h1_main_v25 (W2 m ρ c)).trans (at2_main_v25 m ρ c)

/-! ## After launch 1 (boundary 4) -/
theorem at4_main_v32 : W4 m ρ c dr(main_v32) = (fun i => FloatOps.addf ((rsI (A1 m c)) i) ((rsI (items1 (A0 m c) (A2 m c) (A3 m c) (A4 m c))) i)) :=
  (W4_arr m ρ c 2).trans ((AddItems.sum1 (V3 m ρ) c).trans (by
    show (fun i => FloatOps.addf (W3 m ρ c dr(main_v30) i) (W3 m ρ c dr(main_v31) i)) = _
    rw [at3_main_v30 m ρ c, at3_main_v31 m ρ c]
    rfl))
theorem at4_main_arg2 : W4 m ρ c dr(main_arg2) = (A2 m c) :=
  (W4_of_ne m ρ c main_arg2 (by decide)).trans (at3_main_arg2 m ρ c)
theorem at4_main_arg3 : W4 m ρ c dr(main_arg3) = (A3 m c) :=
  (W4_of_ne m ρ c main_arg3 (by decide)).trans (at3_main_arg3 m ρ c)
theorem at4_main_arg4 : W4 m ρ c dr(main_arg4) = (A4 m c) :=
  (W4_of_ne m ρ c main_arg4 (by decide)).trans (at3_main_arg4 m ρ c)
theorem at4_main_arg5 : W4 m ρ c dr(main_arg5) = (A5 m c) :=
  (W4_of_ne m ρ c main_arg5 (by decide)).trans (at3_main_arg5 m ρ c)
theorem at4_main_arg6 : W4 m ρ c dr(main_arg6) = (A6 m c) :=
  (W4_of_ne m ρ c main_arg6 (by decide)).trans (at3_main_arg6 m ρ c)
theorem at4_main_v12 : W4 m ρ c dr(main_v12) = (items1 (A0 m c) (A2 m c) (A3 m c) (A4 m c)) :=
  (W4_of_ne m ρ c main_v12 (by decide)).trans (at3_main_v12 m ρ c)
theorem at4_main_v25 : W4 m ρ c dr(main_v25) = (users1 (A1 m c) (A2 m c) (A3 m c) (A4 m c)) :=
  (W4_of_ne m ρ c main_v25 (by decide)).trans (at3_main_v25 m ρ c)
theorem at4_main_v29 : W4 m ρ c dr(main_v29) = (addf (A0 m c) (users1 (A1 m c) (A2 m c) (A3 m c) (A4 m c))) :=
  (W4_of_ne m ρ c main_v29 (by decide)).trans (at3_main_v29 m ρ c)

/-! ## After stretch 2 (boundary 5) -/
theorem at5_main_v33 : W5 m ρ c dr(main_v33) = (addf (A1 m c) (items1 (A0 m c) (A2 m c) (A3 m c) (A4 m c))) :=
  (h2_main_v33 (W4 m ρ c)).trans (by rw [at4_main_v32 m ρ c] ; exact unrsI_sum _ _)
theorem at5_main_v46 : W5 m ρ c dr(main_v46) = (items2 (A1 m c) (A2 m c) (A3 m c) (A4 m c)) :=
  (h2_main_v46 (W4 m ρ c)).trans (by rw [at4_main_v25 m ρ c, at4_main_arg2 m ρ c, at4_main_arg3 m ρ c, at4_main_arg4 m ρ c] <;> rfl)
theorem at5_main_v59 : W5 m ρ c dr(main_v59) = (users2 (A0 m c) (A2 m c) (A3 m c) (A4 m c)) :=
  (h2_main_v59 (W4 m ρ c)).trans (by rw [at4_main_v12 m ρ c, at4_main_arg2 m ρ c, at4_main_arg3 m ρ c, at4_main_arg4 m ρ c] <;> rfl)
theorem at5_main_v60 : W5 m ρ c dr(main_v60) = (rsU (addf (A0 m c) (users1 (A1 m c) (A2 m c) (A3 m c) (A4 m c)))) :=
  (h2_main_v60 (W4 m ρ c)).trans (by rw [at4_main_v29 m ρ c] <;> rfl)
theorem at5_main_v61 : W5 m ρ c dr(main_v61) = (rsU (users2 (A0 m c) (A2 m c) (A3 m c) (A4 m c))) :=
  (h2_main_v61 (W4 m ρ c)).trans (by rw [at4_main_v12 m ρ c, at4_main_arg2 m ρ c, at4_main_arg3 m ρ c, at4_main_arg4 m ρ c] <;> rfl)
theorem at5_main_arg2 : W5 m ρ c dr(main_arg2) = (A2 m c) :=
  (h2_main_arg2 (W4 m ρ c)).trans (at4_main_arg2 m ρ c)
theorem at5_main_arg3 : W5 m ρ c dr(main_arg3) = (A3 m c) :=
  (h2_main_arg3 (W4 m ρ c)).trans (at4_main_arg3 m ρ c)
theorem at5_main_arg4 : W5 m ρ c dr(main_arg4) = (A4 m c) :=
  (h2_main_arg4 (W4 m ρ c)).trans (at4_main_arg4 m ρ c)
theorem at5_main_arg5 : W5 m ρ c dr(main_arg5) = (A5 m c) :=
  (h2_main_arg5 (W4 m ρ c)).trans (at4_main_arg5 m ρ c)
theorem at5_main_arg6 : W5 m ρ c dr(main_arg6) = (A6 m c) :=
  (h2_main_arg6 (W4 m ρ c)).trans (at4_main_arg6 m ρ c)

/-! ## After launch 2 (boundary 6) -/
theorem at6_main_v62 : W6 m ρ c dr(main_v62) = (fun i => FloatOps.addf ((rsU (addf (A0 m c) (users1 (A1 m c) (A2 m c) (A3 m c) (A4 m c)))) i) ((rsU (users2 (A0 m c) (A2 m c) (A3 m c) (A4 m c))) i)) :=
  (W6_arr m ρ c 2).trans ((AddUsers.sum2 (V5 m ρ) c).trans (by
    show (fun i => FloatOps.addf (W5 m ρ c dr(main_v60) i) (W5 m ρ c dr(main_v61) i)) = _
    rw [at5_main_v60 m ρ c, at5_main_v61 m ρ c]
    rfl))
theorem at6_main_arg2 : W6 m ρ c dr(main_arg2) = (A2 m c) :=
  (W6_of_ne m ρ c main_arg2 (by decide)).trans (at5_main_arg2 m ρ c)
theorem at6_main_arg3 : W6 m ρ c dr(main_arg3) = (A3 m c) :=
  (W6_of_ne m ρ c main_arg3 (by decide)).trans (at5_main_arg3 m ρ c)
theorem at6_main_arg4 : W6 m ρ c dr(main_arg4) = (A4 m c) :=
  (W6_of_ne m ρ c main_arg4 (by decide)).trans (at5_main_arg4 m ρ c)
theorem at6_main_arg5 : W6 m ρ c dr(main_arg5) = (A5 m c) :=
  (W6_of_ne m ρ c main_arg5 (by decide)).trans (at5_main_arg5 m ρ c)
theorem at6_main_arg6 : W6 m ρ c dr(main_arg6) = (A6 m c) :=
  (W6_of_ne m ρ c main_arg6 (by decide)).trans (at5_main_arg6 m ρ c)
theorem at6_main_v33 : W6 m ρ c dr(main_v33) = (addf (A1 m c) (items1 (A0 m c) (A2 m c) (A3 m c) (A4 m c))) :=
  (W6_of_ne m ρ c main_v33 (by decide)).trans (at5_main_v33 m ρ c)
theorem at6_main_v46 : W6 m ρ c dr(main_v46) = (items2 (A1 m c) (A2 m c) (A3 m c) (A4 m c)) :=
  (W6_of_ne m ρ c main_v46 (by decide)).trans (at5_main_v46 m ρ c)
theorem at6_main_v59 : W6 m ρ c dr(main_v59) = (users2 (A0 m c) (A2 m c) (A3 m c) (A4 m c)) :=
  (W6_of_ne m ρ c main_v59 (by decide)).trans (at5_main_v59 m ρ c)

/-! ## After stretch 3 (boundary 7) -/
theorem at7_main_v63 : W7 m ρ c dr(main_v63) = (addf (addf (A0 m c) (users1 (A1 m c) (A2 m c) (A3 m c) (A4 m c))) (users2 (A0 m c) (A2 m c) (A3 m c) (A4 m c))) :=
  (h3_main_v63 (W6 m ρ c)).trans (by rw [at6_main_v62 m ρ c] ; exact unrsU_sum _ _)
theorem at7_main_v64 : W7 m ρ c dr(main_v64) = (rsI (addf (A1 m c) (items1 (A0 m c) (A2 m c) (A3 m c) (A4 m c)))) :=
  (h3_main_v64 (W6 m ρ c)).trans (by rw [at6_main_v33 m ρ c] <;> rfl)
theorem at7_main_v65 : W7 m ρ c dr(main_v65) = (rsI (items2 (A1 m c) (A2 m c) (A3 m c) (A4 m c))) :=
  (h3_main_v65 (W6 m ρ c)).trans (by rw [at6_main_v46 m ρ c] <;> rfl)
theorem at7_main_arg2 : W7 m ρ c dr(main_arg2) = (A2 m c) :=
  (h3_main_arg2 (W6 m ρ c)).trans (at6_main_arg2 m ρ c)
theorem at7_main_arg3 : W7 m ρ c dr(main_arg3) = (A3 m c) :=
  (h3_main_arg3 (W6 m ρ c)).trans (at6_main_arg3 m ρ c)
theorem at7_main_arg4 : W7 m ρ c dr(main_arg4) = (A4 m c) :=
  (h3_main_arg4 (W6 m ρ c)).trans (at6_main_arg4 m ρ c)
theorem at7_main_arg5 : W7 m ρ c dr(main_arg5) = (A5 m c) :=
  (h3_main_arg5 (W6 m ρ c)).trans (at6_main_arg5 m ρ c)
theorem at7_main_arg6 : W7 m ρ c dr(main_arg6) = (A6 m c) :=
  (h3_main_arg6 (W6 m ρ c)).trans (at6_main_arg6 m ρ c)
theorem at7_main_v46 : W7 m ρ c dr(main_v46) = (items2 (A1 m c) (A2 m c) (A3 m c) (A4 m c)) :=
  (h3_main_v46 (W6 m ρ c)).trans (at6_main_v46 m ρ c)
theorem at7_main_v59 : W7 m ρ c dr(main_v59) = (users2 (A0 m c) (A2 m c) (A3 m c) (A4 m c)) :=
  (h3_main_v59 (W6 m ρ c)).trans (at6_main_v59 m ρ c)

/-! ## After launch 3 (boundary 8) -/
theorem at8_main_v66 : W8 m ρ c dr(main_v66) = (fun i => FloatOps.addf ((rsI (addf (A1 m c) (items1 (A0 m c) (A2 m c) (A3 m c) (A4 m c)))) i) ((rsI (items2 (A1 m c) (A2 m c) (A3 m c) (A4 m c))) i)) :=
  (W8_arr m ρ c 2).trans ((AddItems.sum3 (V7 m ρ) c).trans (by
    show (fun i => FloatOps.addf (W7 m ρ c dr(main_v64) i) (W7 m ρ c dr(main_v65) i)) = _
    rw [at7_main_v64 m ρ c, at7_main_v65 m ρ c]
    rfl))
theorem at8_main_arg2 : W8 m ρ c dr(main_arg2) = (A2 m c) :=
  (W8_of_ne m ρ c main_arg2 (by decide)).trans (at7_main_arg2 m ρ c)
theorem at8_main_arg3 : W8 m ρ c dr(main_arg3) = (A3 m c) :=
  (W8_of_ne m ρ c main_arg3 (by decide)).trans (at7_main_arg3 m ρ c)
theorem at8_main_arg4 : W8 m ρ c dr(main_arg4) = (A4 m c) :=
  (W8_of_ne m ρ c main_arg4 (by decide)).trans (at7_main_arg4 m ρ c)
theorem at8_main_arg5 : W8 m ρ c dr(main_arg5) = (A5 m c) :=
  (W8_of_ne m ρ c main_arg5 (by decide)).trans (at7_main_arg5 m ρ c)
theorem at8_main_arg6 : W8 m ρ c dr(main_arg6) = (A6 m c) :=
  (W8_of_ne m ρ c main_arg6 (by decide)).trans (at7_main_arg6 m ρ c)
theorem at8_main_v46 : W8 m ρ c dr(main_v46) = (items2 (A1 m c) (A2 m c) (A3 m c) (A4 m c)) :=
  (W8_of_ne m ρ c main_v46 (by decide)).trans (at7_main_v46 m ρ c)
theorem at8_main_v59 : W8 m ρ c dr(main_v59) = (users2 (A0 m c) (A2 m c) (A3 m c) (A4 m c)) :=
  (W8_of_ne m ρ c main_v59 (by decide)).trans (at7_main_v59 m ρ c)
theorem at8_main_v63 : W8 m ρ c dr(main_v63) = (addf (addf (A0 m c) (users1 (A1 m c) (A2 m c) (A3 m c) (A4 m c))) (users2 (A0 m c) (A2 m c) (A3 m c) (A4 m c))) :=
  (W8_of_ne m ρ c main_v63 (by decide)).trans (at7_main_v63 m ρ c)

/-! ## After stretch 4 (boundary 9) -/
theorem at9_main_v67 : W9 m ρ c dr(main_v67) = (addf (addf (A1 m c) (items1 (A0 m c) (A2 m c) (A3 m c) (A4 m c))) (items2 (A1 m c) (A2 m c) (A3 m c) (A4 m c))) :=
  (h4_main_v67 (W8 m ρ c)).trans (by rw [at8_main_v66 m ρ c] ; exact unrsI_sum _ _)
theorem at9_main_v80 : W9 m ρ c dr(main_v80) = (items3 (A0 m c) (A2 m c) (A3 m c) (A4 m c)) :=
  (h4_main_v80 (W8 m ρ c)).trans (by rw [at8_main_v59 m ρ c, at8_main_arg2 m ρ c, at8_main_arg3 m ρ c, at8_main_arg4 m ρ c] <;> rfl)
theorem at9_main_v93 : W9 m ρ c dr(main_v93) = (users3 (A1 m c) (A2 m c) (A3 m c) (A4 m c)) :=
  (h4_main_v93 (W8 m ρ c)).trans (by rw [at8_main_v46 m ρ c, at8_main_arg2 m ρ c, at8_main_arg3 m ρ c, at8_main_arg4 m ρ c] <;> rfl)
theorem at9_main_v94 : W9 m ρ c dr(main_v94) = (rsU (addf (addf (A0 m c) (users1 (A1 m c) (A2 m c) (A3 m c) (A4 m c))) (users2 (A0 m c) (A2 m c) (A3 m c) (A4 m c)))) :=
  (h4_main_v94 (W8 m ρ c)).trans (by rw [at8_main_v63 m ρ c] <;> rfl)
theorem at9_main_v95 : W9 m ρ c dr(main_v95) = (rsU (users3 (A1 m c) (A2 m c) (A3 m c) (A4 m c))) :=
  (h4_main_v95 (W8 m ρ c)).trans (by rw [at8_main_v46 m ρ c, at8_main_arg2 m ρ c, at8_main_arg3 m ρ c, at8_main_arg4 m ρ c] <;> rfl)
theorem at9_main_arg5 : W9 m ρ c dr(main_arg5) = (A5 m c) :=
  (h4_main_arg5 (W8 m ρ c)).trans (at8_main_arg5 m ρ c)
theorem at9_main_arg6 : W9 m ρ c dr(main_arg6) = (A6 m c) :=
  (h4_main_arg6 (W8 m ρ c)).trans (at8_main_arg6 m ρ c)

/-! ## After launch 4 (boundary 10) -/
theorem at10_main_v96 : W10 m ρ c dr(main_v96) = (fun i => FloatOps.addf ((rsU (addf (addf (A0 m c) (users1 (A1 m c) (A2 m c) (A3 m c) (A4 m c))) (users2 (A0 m c) (A2 m c) (A3 m c) (A4 m c)))) i) ((rsU (users3 (A1 m c) (A2 m c) (A3 m c) (A4 m c))) i)) :=
  (W10_arr m ρ c 2).trans ((AddUsers.sum4 (V9 m ρ) c).trans (by
    show (fun i => FloatOps.addf (W9 m ρ c dr(main_v94) i) (W9 m ρ c dr(main_v95) i)) = _
    rw [at9_main_v94 m ρ c, at9_main_v95 m ρ c]
    rfl))
theorem at10_main_arg5 : W10 m ρ c dr(main_arg5) = (A5 m c) :=
  (W10_of_ne m ρ c main_arg5 (by decide)).trans (at9_main_arg5 m ρ c)
theorem at10_main_arg6 : W10 m ρ c dr(main_arg6) = (A6 m c) :=
  (W10_of_ne m ρ c main_arg6 (by decide)).trans (at9_main_arg6 m ρ c)
theorem at10_main_v67 : W10 m ρ c dr(main_v67) = (addf (addf (A1 m c) (items1 (A0 m c) (A2 m c) (A3 m c) (A4 m c))) (items2 (A1 m c) (A2 m c) (A3 m c) (A4 m c))) :=
  (W10_of_ne m ρ c main_v67 (by decide)).trans (at9_main_v67 m ρ c)
theorem at10_main_v80 : W10 m ρ c dr(main_v80) = (items3 (A0 m c) (A2 m c) (A3 m c) (A4 m c)) :=
  (W10_of_ne m ρ c main_v80 (by decide)).trans (at9_main_v80 m ρ c)

/-! ## After stretch 5 (boundary 11) -/
theorem at11_main_v97 : W11 m ρ c dr(main_v97) = (addf (addf (addf (A0 m c) (users1 (A1 m c) (A2 m c) (A3 m c) (A4 m c))) (users2 (A0 m c) (A2 m c) (A3 m c) (A4 m c))) (users3 (A1 m c) (A2 m c) (A3 m c) (A4 m c))) :=
  (h5_main_v97 (W10 m ρ c)).trans (by rw [at10_main_v96 m ρ c] ; exact unrsU_sum _ _)
theorem at11_main_v98 : W11 m ρ c dr(main_v98) = (rsI (addf (addf (A1 m c) (items1 (A0 m c) (A2 m c) (A3 m c) (A4 m c))) (items2 (A1 m c) (A2 m c) (A3 m c) (A4 m c)))) :=
  (h5_main_v98 (W10 m ρ c)).trans (by rw [at10_main_v67 m ρ c] <;> rfl)
theorem at11_main_v99 : W11 m ρ c dr(main_v99) = (rsI (items3 (A0 m c) (A2 m c) (A3 m c) (A4 m c))) :=
  (h5_main_v99 (W10 m ρ c)).trans (by rw [at10_main_v80 m ρ c] <;> rfl)
theorem at11_main_arg5 : W11 m ρ c dr(main_arg5) = (A5 m c) :=
  (h5_main_arg5 (W10 m ρ c)).trans (at10_main_arg5 m ρ c)
theorem at11_main_arg6 : W11 m ρ c dr(main_arg6) = (A6 m c) :=
  (h5_main_arg6 (W10 m ρ c)).trans (at10_main_arg6 m ρ c)

/-! ## After launch 5 (boundary 12) -/
theorem at12_main_v100 : W12 m ρ c dr(main_v100) = (fun i => FloatOps.addf ((rsI (addf (addf (A1 m c) (items1 (A0 m c) (A2 m c) (A3 m c) (A4 m c))) (items2 (A1 m c) (A2 m c) (A3 m c) (A4 m c)))) i) ((rsI (items3 (A0 m c) (A2 m c) (A3 m c) (A4 m c))) i)) :=
  (W12_arr m ρ c 2).trans ((AddItems.sum5 (V11 m ρ) c).trans (by
    show (fun i => FloatOps.addf (W11 m ρ c dr(main_v98) i) (W11 m ρ c dr(main_v99) i)) = _
    rw [at11_main_v98 m ρ c, at11_main_v99 m ρ c]
    rfl))
theorem at12_main_arg5 : W12 m ρ c dr(main_arg5) = (A5 m c) :=
  (W12_of_ne m ρ c main_arg5 (by decide)).trans (at11_main_arg5 m ρ c)
theorem at12_main_arg6 : W12 m ρ c dr(main_arg6) = (A6 m c) :=
  (W12_of_ne m ρ c main_arg6 (by decide)).trans (at11_main_arg6 m ρ c)
theorem at12_main_v97 : W12 m ρ c dr(main_v97) = (addf (addf (addf (A0 m c) (users1 (A1 m c) (A2 m c) (A3 m c) (A4 m c))) (users2 (A0 m c) (A2 m c) (A3 m c) (A4 m c))) (users3 (A1 m c) (A2 m c) (A3 m c) (A4 m c))) :=
  (W12_of_ne m ρ c main_v97 (by decide)).trans (at11_main_v97 m ρ c)

/-! ## After stretch 6 (boundary 13) -/
theorem at13_main_v108 : W13 m ρ c dr(main_v108) = (pickUsers (addf (addf (addf (A0 m c) (users1 (A1 m c) (A2 m c) (A3 m c) (A4 m c))) (users2 (A0 m c) (A2 m c) (A3 m c) (A4 m c))) (users3 (A1 m c) (A2 m c) (A3 m c) (A4 m c))) (A5 m c)) :=
  (h6_main_v108 (W12 m ρ c)).trans (by rw [at12_main_v97 m ρ c, at12_main_arg5 m ρ c] <;> rfl)
theorem at13_main_v115 : W13 m ρ c dr(main_v115) = (pickItems (addf (addf (addf (A1 m c) (items1 (A0 m c) (A2 m c) (A3 m c) (A4 m c))) (items2 (A1 m c) (A2 m c) (A3 m c) (A4 m c))) (items3 (A0 m c) (A2 m c) (A3 m c) (A4 m c))) (A6 m c)) :=
  (h6_main_v115 (W12 m ρ c)).trans (by rw [at12_main_v100 m ρ c, at12_main_arg6 m ρ c] ; rw [unrsI_sum] <;> rfl)

end Cert.KernelIdeal.Chain.Bound

end
-- ==== Proof.ScoreLaunch.lean ====
/-
  The scoring launch read as one whole-array function, on the extended reals.

  The launch walks the 16384 rows in 8 blocks of 2048. At a point the body multiplies its two [2048, 64] blocks
  entry by entry, sums each row over the 64 columns and multiplies the row sums by the constant 1/16; it stores the
  2048 results as the point's block of the result. The blocks tile the result, so after the launch entry `r` of the
  result is `(Σ_k x(r,k) · y(r,k)) · 1/16` of the two operand arrays as the launch found them.
-/
import proofs.«144139_j23854248362837_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Chain.Score

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable (V : (c : Dev nD) → (b : Ref sig .tc) → Buf (Elt Ideal) ((c : Thread nD τ).loc b))

open Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a; rfl

/-- The score of row `r` of two [n, 64] arrays: the sum over the 64 columns of the products, times 1/16. -/
def rowScore {n : Nat} (x y : (⟨2, ![n, 64]⟩ : Shape).Idx → EReal) (r : Fin n) : EReal :=
  (∑ k : Fin 64, x (ix2 r k) * y (ix2 r k)) * Ideal.ofBits .f32 0x3D800000#32

theorem pay6 (x0 x1 : Vec Ideal S2048x64 .f32) (r : Fin 2048) :
    k6_pay1 x0 x1 (ix1 r) = rowScore x0 x1 r := by
  unfold k6_pay1
  simp only [shapeCast_self]
  show (multiReduction FKind.add [1] S2048 (mulf x0 x1) (0#32) reduces_S2048x64_S2048 _ _ (ix1 r)) * Ideal.ofBits .f32 0x3D800000#32 = _
  unfold rowScore
  refine congrArg (· * Ideal.ofBits .f32 0x3D800000#32) ?_
  refine (Ideal.multiReduction_add_single (mulf x0 x1) 0x00000000#32 reduces_S2048x64_S2048 _ _ (ix1 r)).trans ?_
  refine Finset.sum_congr rfl fun k _ => ?_
  show x0 _ * x1 _ = _
  have e : reduces_S2048x64_S2048.lift (ix1 r) k = ix2 r k := by
    funext a; apply Fin.ext
    match a with
    | ⟨0, _⟩ => rfl
    | ⟨1, _⟩ => rfl
  rw [e]
  rfl

/-- At point `t` the two operand windows are on row block `t` (all 64 columns) and the result window on block `t`. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 1) = t.val :=
  (by decide +kernel : ∀ t : Fin grid6.N, _)

/-- What the launch leaves in its result array: the score of every row of its two operand arrays. -/
def scores (c : Dev nD) : S16384.Idx → EReal :=
  fun i => rowScore (n := 16384) (V c (Pipeline.arrRef spec6 0)) (V c (Pipeline.arrRef spec6 1)) (i 0)

theorem flushed6_at (c : Dev nD) (t : Fin cfg6.N) (r : Fin 2048) :
    k6_pay1 (iblk6 V c 0 t) (iblk6 V c 1 t) (ix1 r) = scores V c (((cfg6.win 2).blk t).view.emb (ix1 r)) := by
  rw [pay6]
  obtain ⟨e0, e1, e2, e3, e4⟩ := idx6 t
  unfold scores rowScore
  refine congrArg (· * Ideal.ofBits .f32 0x3D800000#32) (Finset.sum_congr rfl fun k _ => ?_)
  have h0 : ((cfg6.win 0).blk t).view.emb (ix2 r k) = ix2 ((((cfg6.win 2).blk t).view.emb (ix1 r)) 0) k := by
    funext a; apply Fin.ext
    match a with
    | ⟨0, _⟩ => show win6_0.index t (0 : Fin 2) * 2048 + 1 * r.val = win6_2.index t (0 : Fin 1) * 2048 + 1 * r.val; omega
    | ⟨1, _⟩ => show win6_0.index t (1 : Fin 2) * 64 + 1 * k.val = k.val; omega
  have h1 : ((cfg6.win 1).blk t).view.emb (ix2 r k) = ix2 ((((cfg6.win 2).blk t).view.emb (ix1 r)) 0) k := by
    funext a; apply Fin.ext
    match a with
    | ⟨0, _⟩ => show win6_1.index t (0 : Fin 2) * 2048 + 1 * r.val = win6_2.index t (0 : Fin 1) * 2048 + 1 * r.val; omega
    | ⟨1, _⟩ => show win6_1.index t (1 : Fin 2) * 64 + 1 * k.val = k.val; omega
  exact congrArg₂ (fun a b : EReal => a * b) (congrArg (V c (Pipeline.arrRef spec6 0)) h0) (congrArg (V c (Pipeline.arrRef spec6 1)) h1)

/-- What point `t` writes back is block `t` of the scores. -/
theorem flushed6 (c : Dev nD) (t : Fin cfg6.N) :
    (dat6 V c).flushed 2 t = ((cfg6.win 2).blk t).view.read (Elt Ideal) (scores V c) := by
  show (cfg6.win 2).cut (grid6.coords t) ((dat6 V c).after 2 t) = _
  rw [after6_2]
  unfold out6_2
  rw [View.canon_unit_zero hz1]
  simp only [View.ld_unit_zero (S := S2048x64) hz2]
  funext j
  obtain ⟨r, rfl⟩ : ∃ r : Fin 2048, j = ix1 r := ⟨j 0, eq_ix1 j⟩
  exact flushed6_at V c t r

theorem mem_blk6 (t : Fin cfg6.N) (i : S16384.Idx) :
    i ∈ ((cfg6.win 2).blk t).view.set ↔ ∀ a : Fin 1, win6_2.index t a * S2048.size a ≤ (i a).val ∧ (i a).val < win6_2.index t a * S2048.size a + S2048.size a := by
  show i ∈ ((View.whole main_v116).slice (win6_2.rect t)).set ↔ _
  rw [View.set_slice_whole, Rect.mem_set_unit]
  exact Iff.rfl

/-- Row `r` of the result is in the block of point `r / 2048`: the blocks cover the result. -/
theorem cover6 (i : S16384.Idx) : ∃ t : Fin cfg6.N, (cfg6.win 2).flush t = true ∧ i ∈ ((cfg6.win 2).blk t).view.set := by
  have hi0 : (i 0).val < 16384 := (i 0).isLt
  let t : Fin cfg6.N := ⟨(i 0).val / 2048, by rw [show cfg6.N = 8 from N_6]; omega⟩
  obtain ⟨-, -, -, -, e4⟩ := idx6 t
  have e4' : win6_2.index t (0 : Fin 1) = (i 0).val / 2048 := e4
  refine ⟨t, flush6_2 t, ?_⟩
  rw [mem_blk6]
  intro a
  match a with
  | ⟨0, _⟩ => show win6_2.index t (0 : Fin 1) * 2048 ≤ (i 0).val ∧ (i 0).val < win6_2.index t (0 : Fin 1) * 2048 + 2048; omega

/-- The launch leaves its result array at the scores of its two operand arrays, as the launch finds them. -/
theorem result6 (c : Dev nD) : (dat6 V c).arrAt 2 cfg6.N = scores V c :=
  (dat6 V c).arrAt_eq_of_cover 2 _ (fun t _ => flushed6 V c t) cover6

end Cert.KernelIdeal.Chain.Score
end
-- ==== Proof.Result.lean ====
/-
  The program's result, as one function of its seven arguments on the extended reals: entry `r` is
  `(Σ_k U(r,k) · I(r,k)) · 1/16`, where `U` are the picked rows of the sum of the user tables of depth 0 to 3 and `I` the
  picked rows of the sum of the item tables.
-/
import proofs.«144139_j23854248362837_2_alg».proof.Proof.Layers
import proofs.«144139_j23854248362837_2_alg».proof.Proof.ScoreLaunch

noncomputable section

namespace Cert.KernelIdeal.Chain

open Cert.KernelIdeal Cert.KernelIdeal.Layers Idealize.ShloMosaic

/-- The program's result of its seven arguments. -/
def result (a0 : UserT Ideal) (a1 : ItemT Ideal) (w : EdgeW Ideal) (iu ii : EdgeIx Ideal) (u i : PairIx Ideal) :
    S16384.Idx → EReal :=
  fun r => Score.rowScore (n := 16384) (pickUsers (sumUsers a0 a1 w iu ii) u) (pickItems (sumItems a0 a1 w iu ii) i) (r 0)

end Cert.KernelIdeal.Chain

end
-- ==== Proof.KernelValue.lean ====
/-
  The idealized kernel's value: its result, as one function of its seven arguments on the extended reals.

  Entry `r` of the result is `(Σ_k U(r,k) · I(r,k)) · 1/16`, where `U` are the picked rows of the sum of the user tables of
  depth 0 to 3 and `I` the picked rows of the sum of the item tables (`result`). The scoring launch leaves exactly the
  row scores of the two arrays it finds, and the boundary contents say those arrays are `U` and `I`.
-/
import proofs.«144139_j23854248362837_2_alg».proof.Proof.KernelRun
import proofs.«144139_j23854248362837_2_alg».proof.Proof.Boundaries
import proofs.«144139_j23854248362837_2_alg».proof.Proof.ScoreLaunch
import proofs.«144139_j23854248362837_2_alg».proof.Proof.Result

set_option maxRecDepth 16384

noncomputable section

namespace Cert.KernelIdeal.Chain

open Cert.KernelIdeal Cert.KernelIdeal.Gen Cert.KernelIdeal.Layers
open Idealize.ShloMosaic Idealize.ShloMosaic.TcCoe
open Idealize.SL Idealize.SL.Sem

variable (m : (ℓ : Loc nD τ sig) → Buf (Elt Ideal) ℓ) (ρ : Dev nD → PrngReg)

local macro "dr(" b:term ")" : term => `(Proc.devRef .tc $b)

set_option maxHeartbeats 4000000 in
/-- The last boundary's contents at the result buffer are `result` of the launch contents of the arguments. -/
theorem last_result (c : Dev nD) : W14 m ρ c dr(main_v116)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) :=
  (W14_arr m ρ c 2).trans ((Score.result6 (V13 m ρ) c).trans (funext fun i =>
    congrArg₂ (fun x y => Score.rowScore (n := 16384) x y (i 0)) (Bound.at13_main_v108 m ρ c) (Bound.at13_main_v115 m ρ c)))

/-- Every weakly fair execution of the idealized kernel terminates, nothing faulting, with the result buffer at
    `result` of the arguments and the arguments unchanged. -/
theorem run : θ_run defs (onTc (τ := τ) (main (F := Ideal))) ⟨m, fun _ => 0, ρ⟩ (fun r => ∀ c : Dev nD,
      r.2.mem ((c.tc : Thread nD τ).loc main_v116)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_result m ρ c), (h c).2⟩) (run_result m ρ)

end Cert.KernelIdeal.Chain

end
-- ==== Proof.Consts.lean ====
/-
  The three float constants of the two programs, as the extended reals their patterns denote: +0.0 is 0, the
  reference's layer-mean factor 0x3E800000 is 1/4, and the scoring launch's factor 0x3D800000 is 1/16 = 1/4 · 1/4.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_quarter : Ideal.ofBits .f32 0x3E800000#32 = ((1 / 4 : ℝ) : EReal) := by
  simp [Ideal.ofBits, Ideal.ieee, -EReal.coe_mul]; norm_num

theorem ofBits_sixteenth : Ideal.ofBits .f32 0x3D800000#32 = ((1 / 4 * (1 / 4) : ℝ) : EReal) := by
  simp [Ideal.ofBits, Ideal.ieee, -EReal.coe_mul]; norm_num

end Cert.Consts

end
-- ==== Proof.ScaleSum.lean ====
/-
  The one law that joins the two sides, on the extended reals.

  Scaling both factors of every product by a nonnegative real `c` and then summing is the same as summing
  the products and scaling once by `c * c`. Multiplication on the extended reals is commutative and associative,
  which moves the two copies of `c` together; a nonnegative REAL factor distributes over every sum of extended
  reals (it sends each of -∞, a real, +∞ to the same kind), which pulls `c * c` out of the sum. No finiteness of
  the summands is needed.
-/
import Mathlib.Data.EReal.Inv
import Mathlib.Algebra.BigOperators.Fin

open scoped BigOperators

namespace ScaleSum

/-- A nonnegative real factor comes out of a finite sum of extended reals. -/
theorem sum_mul_coe {ι : Type} (s : Finset ι) (z : ι → EReal) (k : ℝ) (hk : 0 ≤ k) :
    ∑ q ∈ s, z q * (k : EReal) = (∑ q ∈ s, z q) * (k : EReal) := by
  classical
  induction s using Finset.induction_on with
  | empty => simp
  | insert a s ha ih =>
    rw [Finset.sum_insert ha, Finset.sum_insert ha, ih, mul_comm (z a + _) _,
      EReal.left_distrib_of_nonneg_of_ne_top (EReal.coe_nonneg.mpr hk) (EReal.coe_ne_top k),
      mul_comm (k : EReal) (z a), mul_comm (k : EReal) (∑ q ∈ s, z q)]

/-- Σ (a·c)(b·c) = (Σ a·b)·(c·c) for a nonnegative real `c`, the summands arbitrary extended reals. -/
theorem sum_scaled_mul {ι : Type} (s : Finset ι) (a b : ι → EReal) (c : ℝ) (hc : 0 ≤ c) :
    ∑ q ∈ s, (a q * (c : EReal)) * (b q * (c : EReal)) = (∑ q ∈ s, a q * b q) * ((c * c : ℝ) : EReal) := by
  rw [← sum_mul_coe s (fun q => a q * b q) (c * c) (mul_nonneg hc hc)]
  refine Finset.sum_congr rfl fun q _ => ?_
  rw [EReal.coe_mul, mul_mul_mul_comm]

end ScaleSum
-- ==== Proof.RefValue.lean ====
/-
  The reference's value is the specification's.

  The reference runs the same three propagation steps and adds the tables up in the same order (its two sums ARE the
  specification's, operation for operation). It then scales both sums by 1/4, picks the pairs' rows, multiplies entry by
  entry and adds the 64 products of a row up from 0. Picking rows commutes with scaling entry by entry, so entry `r` is
  `0 + Σ_k (U(r,k) · 1/4) · (I(r,k) · 1/4)`, which is `(Σ_k U(r,k) · I(r,k)) · 1/16` on the extended reals for arbitrary
  `U`, `I` (a nonnegative real factor comes out of a sum).
-/
import proofs.«144139_j23854248362837_2_alg».proof.Proof.Gen.ReferenceIdeal.Read
import proofs.«144139_j23854248362837_2_alg».proof.Proof.Result
import proofs.«144139_j23854248362837_2_alg».proof.Proof.Consts
import proofs.«144139_j23854248362837_2_alg».proof.Proof.ScaleSum
import Idealize.ShloMosaic.Lib.ValueIdx

set_option maxRecDepth 16384

noncomputable section

namespace Cert.ReferenceIdeal.RefValue

open Cert.ReferenceIdeal Idealize.ShloMosaic Idealize.ShloMosaic.ValueIdx
open Cert.KernelIdeal.Layers Cert.KernelIdeal.Chain
open scoped BigOperators

variable (x0 : UserT Ideal) (x1 : ItemT Ideal) (x2 : EdgeW Ideal) (x3 x4 : EdgeIx Ideal) (x5 x6 : PairIx Ideal)

theorem users_eq : Read.val_main_v82 (F := Ideal) x0 x1 x2 x3 x4 = sumUsers x0 x1 x2 x3 x4 := rfl
theorem items_eq : Read.val_main_v83 (F := Ideal) x0 x1 x2 x3 x4 = sumItems x0 x1 x2 x3 x4 := rfl

/-- The reference's result, entry by entry, is the specification's: both pick the same rows of the same two sums; the
    reference scales each picked entry by 1/4 before multiplying and adds the products up from 0, the specification scales
    the sum of the plain products by 1/16. -/
theorem result_eq : Read.val_main_v103 (F := Ideal) x0 x1 x2 x3 x4 x5 x6 = result x0 x1 x2 x3 x4 x5 x6 := by
  funext i
  rw [Read.val_main_v103_apply]
  have h0 : Read.val_main_cst_22 (F := Ideal) (Shape.Idx.first Facts₀.h_S_) = 0 := Cert.Consts.ofBits_zero
  rw [h0, zero_add]
  unfold result Score.rowScore
  rw [Cert.Consts.ofBits_sixteenth]
  refine Eq.trans ?_ (ScaleSum.sum_scaled_mul Finset.univ
    (fun k : Fin 64 => pickUsers (sumUsers x0 x1 x2 x3 x4) x5 (ix2 (i 0) k))
    (fun k : Fin 64 => pickItems (sumItems x0 x1 x2 x3 x4) x6 (ix2 (i 0) k)) (1 / 4) (by norm_num))
  refine Finset.sum_congr rfl fun k _ => ?_
  have e : Read.idx_main_v103 i k = ix2 (i 0) k :=
    funext fun a => Fin.ext (by match a with | ⟨0, _⟩ => rfl | ⟨1, _⟩ => rfl)
  rw [e, ← Cert.Consts.ofBits_quarter]
  rfl

end Cert.ReferenceIdeal.RefValue
end
-- ==== Proof.lean ====
/-
  The certificate of a three-layer graph propagation with a pairwise score.

  Both programs propagate two embedding tables three times along the weighted edges of a bipartite graph (gather the
  source rows, scale by the edge weight, scatter-add into the destination rows), add the tables of depth 0 to 3 up per
  side, pick 16384 user rows and 16384 item rows of the two sums and return, per pair, the inner product of the two picked
  rows scaled by 1/16. The kernel adds the tables up in six launches over re-laid [n/2, 128] copies and scores in a seventh
  launch that multiplies the row sum by 1/16; the reference adds on the host, scales each sum by 1/4 and sums the products.
  On the extended reals both results are `(Σ_k U(r,k) · I(r,k)) · 1/16`: re-laying commutes with adding entry by entry,
  picking rows commutes with scaling, and a nonnegative real factor comes out of a sum of extended reals, so no finiteness
  of the inputs is used. The three frames are the generated ones; the idealization rewrote nothing.
-/
import proofs.«144139_j23854248362837_2_alg».proof.Defs
import proofs.«144139_j23854248362837_2_alg».proof.Proof.Gen.Kernel
import proofs.«144139_j23854248362837_2_alg».proof.Proof.Gen.Kernel.Frame
import proofs.«144139_j23854248362837_2_alg».proof.Proof.Gen.KernelIdeal
import proofs.«144139_j23854248362837_2_alg».proof.Proof.Gen.KernelIdeal.Frame
import proofs.«144139_j23854248362837_2_alg».proof.Proof.Gen.ReferenceIdeal
import proofs.«144139_j23854248362837_2_alg».proof.Proof.Gen.ReferenceIdeal.Run
import proofs.«144139_j23854248362837_2_alg».proof.Proof.Gen.ReferenceIdeal.Read
import proofs.«144139_j23854248362837_2_alg».proof.Proof.Gen.Pre_finite_inputs
import proofs.«144139_j23854248362837_2_alg».proof.Proof.KernelValue
import proofs.«144139_j23854248362837_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the specification's function of arguments that agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
